-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x85 : Shape := ⟨2, ![128, 85]⟩
abbrev S85 : Shape := ⟨1, ![85]⟩
abbrev S85x56 : Shape := ⟨2, ![85, 56]⟩
abbrev S56 : Shape := ⟨1, ![56]⟩
abbrev S56x28 : Shape := ⟨2, ![56, 28]⟩
abbrev S28 : Shape := ⟨1, ![28]⟩
abbrev S28x1 : Shape := ⟨2, ![28, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x85 : S_.BroadcastsInDim S128x85 (![] : Fin 0 → Fin S128x85.rank)
  reducesTo_S128x85_S_d0_1 : S128x85.ReducesTo [0, 1] S_
  bcast_S_S85 : S_.BroadcastsInDim S85 (![] : Fin 0 → Fin S85.rank)
  reducesTo_S85_S_d0 : S85.ReducesTo [0] S_
  bcast_S_S85x56 : S_.BroadcastsInDim S85x56 (![] : Fin 0 → Fin S85x56.rank)
  reducesTo_S85x56_S_d0_1 : S85x56.ReducesTo [0, 1] S_
  bcast_S_S56 : S_.BroadcastsInDim S56 (![] : Fin 0 → Fin S56.rank)
  reducesTo_S56_S_d0 : S56.ReducesTo [0] S_
  bcast_S_S56x28 : S_.BroadcastsInDim S56x28 (![] : Fin 0 → Fin S56x28.rank)
  reducesTo_S56x28_S_d0_1 : S56x28.ReducesTo [0, 1] S_
  bcast_S_S28 : S_.BroadcastsInDim S28 (![] : Fin 0 → Fin S28.rank)
  reducesTo_S28_S_d0 : S28.ReducesTo [0] S_
  bcast_S_S28x1 : S_.BroadcastsInDim S28x1 (![] : Fin 0 → Fin S28x1.rank)
  reducesTo_S28x1_S_d0_1 : S28x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_arg13 : FVec F S28x1 .f32) (main_v48 : IVec S_ 1) (main_v49 : FVec F S28x1 .f32) (main_v50 : FVec F S28x1 .f32) : IVec S_ 1 :=
  let main_v51 : IVec S28x1 1 := cmpf .olt main_v49 main_v50
  let main_c_19 : IVec S_ 1 := constantI S_ 1 1#1
  let main_v52 : IVec S_ 1 := (fun x v => Host.reduce IntOp.andi x v reducesTo_S28x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S28x1 .f32 := Host.absf main_arg13
  let main_cst_22 : FVec F S_ .f32 := constant S_ .f32 0x7F800000#32
  let main_v60 : FVec F S28x1 .f32 := broadcastInDim S28x1 ![] bcast_S_S28x1 main_cst_22
  let main_v61 : IVec S28x1 1 := cmpf .olt main_v59 main_v60
  let main_c_23 : IVec S_ 1 := constantI S_ 1 1#1
  let main_v62 : IVec S_ 1 := (fun x v => Host.reduce IntOp.andi x v reducesTo_S28x1_S_d0_1 h_S_) main_v61 main_c_23
  let main_v63 : IVec S_ 1 := andi main_v58 main_v62
  main_v63

def fn_part2 {F : FTy → Type} [FloatOps F] (main_arg8 : FVec F S56x28 .f32) (main_arg9 : FVec F S28 .f32) (main_arg10 : FVec F S56x28 .f32) (main_arg11 : FVec F S28x1 .f32) (main_arg12 : FVec F S1 .f32) (main_arg13 : FVec F S28x1 .f32) (main_v33 : IVec S_ 1) : IVec S_ 1 :=
  let main_v34 : FVec F S56x28 .f32 := Host.absf main_arg8
  let main_cst_12 : FVec F S_ .f32 := constant S_ .f32 0x7F800000#32
  let main_v35 : FVec F S56x28 .f32 := broadcastInDim S56x28 ![] bcast_S_S56x28 main_cst_12
  let main_v36 : IVec S56x28 1 := cmpf .olt main_v34 main_v35
  let main_c_13 : IVec S_ 1 := constantI S_ 1 1#1
  let main_v37 : IVec S_ 1 := (fun x v => Host.reduce IntOp.andi x v reducesTo_S56x28_S_d0_1 h_S_) main_v36 main_c_13
  let main_v38 : IVec S_ 1 := andi main_v33 main_v37
  let main_v39 : FVec F S28 .f32 := Host.absf main_arg9
  let main_cst_14 : FVec F S_ .f32 := constant S_ .f32 0x7F800000#32
  let main_v40 : FVec F S28 .f32 := broadcastInDim S28 ![] bcast_S_S28 main_cst_14
  let main_v41 : IVec S28 1 := cmpf .olt main_v39 main_v40
  let main_c_15 : IVec S_ 1 := constantI S_ 1 1#1
  let main_v42 : IVec S_ 1 := (fun x v => Host.reduce IntOp.andi x v reducesTo_S28_S_d0 h_S_) main_v41 main_c_15
  let main_v43 : IVec S_ 1 := andi main_v38 main_v42
  let main_v44 : FVec F S56x28 .f32 := Host.absf main_arg10
  let main_cst_16 : FVec F S_ .f32 := constant S_ .f32 0x7F800000#32
  let main_v45 : FVec F S56x28 .f32 := broadcastInDim S56x28 ![] bcast_S_S56x28 main_cst_16
  let main_v46 : IVec S56x28 1 := cmpf .olt main_v44 main_v45
  let main_c_17 : IVec S_ 1 := constantI S_ 1 1#1
  let main_v47 : IVec S_ 1 := (fun x v => Host.reduce IntOp.andi x v reducesTo_S56x28_S_d0_1 h_S_) main_v46 main_c_17
  let main_v48 : IVec S_ 1 := andi main_v43 main_v47
  let main_v49 : FVec F S28x1 .f32 := Host.absf main_arg11
  let main_cst_18 : FVec F S_ .f32 := constant S_ .f32 0x7F800000#32
  let main_v50 : FVec F S28x1 .f32 := broadcastInDim S28x1 ![] bcast_S_S28x1 main_cst_18
  fn_part3 (F := F) main_arg12 main_arg13 main_v48 main_v49 main_v50

def fn_part1 {F : FTy → Type} [FloatOps F] (main_arg5 : FVec F S85x56 .f32) (main_arg6 : FVec F S56 .f32) (main_arg7 : FVec F S85x56 .f32) (main_arg8 : FVec F S56x28 .f32) (main_arg9 : FVec F S28 .f32) (main_arg10 : FVec F S56x28 .f32) (main_arg11 : FVec F S28x1 .f32) (main_arg12 : FVec F S1 .f32) (main_arg13 : FVec F S28x1 .f32) (main_v13 : IVec S_ 1) (main_v16 : IVec S128x85 1) : IVec S_ 1 :=
  let main_c_5 : IVec S_ 1 := constantI S_ 1 1#1
  let main_v17 : IVec S_ 1 := (fun x v => Host.reduce IntOp.andi x v reducesTo_S128x85_S_d0_1 h_S_) main_v16 main_c_5
  let main_v18 : IVec S_ 1 := andi main_v13 main_v17
  let main_v19 : FVec F S85x56 .f32 := Host.absf main_arg5
  let main_cst_6 : FVec F S_ .f32 := constant S_ .f32 0x7F800000#32
  let main_v20 : FVec F S85x56 .f32 := broadcastInDim S85x56 ![] bcast_S_S85x56 main_cst_6
  let main_v21 : IVec S85x56 1 := cmpf .olt main_v19 main_v20
  let main_c_7 : IVec S_ 1 := constantI S_ 1 1#1
  let main_v22 : IVec S_ 1 := (fun x v => Host.reduce IntOp.andi x v reducesTo_S85x56_S_d0_1 h_S_) main_v21 main_c_7
  let main_v23 : IVec S_ 1 := andi main_v18 main_v22
  let main_v24 : FVec F S56 .f32 := Host.absf main_arg6
  let main_cst_8 : FVec F S_ .f32 := constant S_ .f32 0x7F800000#32
  let main_v25 : FVec F S56 .f32 := broadcastInDim S56 ![] bcast_S_S56 main_cst_8
  let main_v26 : IVec S56 1 := cmpf .olt main_v24 main_v25
  let main_c_9 : IVec S_ 1 := constantI S_ 1 1#1
  let main_v27 : IVec S_ 1 := (fun x v => Host.reduce IntOp.andi x v reducesTo_S56_S_d0 h_S_) main_v26 main_c_9
  let main_v28 : IVec S_ 1 := andi main_v23 main_v27
  let main_v29 : FVec F S85x56 .f32 := Host.absf main_arg7
  let main_cst_10 : FVec F S_ .f32 := constant S_ .f32 0x7F800000#32
  let main_v30 : FVec F S85x56 .f32 := broadcastInDim S85x56 ![] bcast_S_S85x56 main_cst_10
  let main_v31 : IVec S85x56 1 := cmpf .olt main_v29 main_v30
  let main_c_11 : IVec S_ 1 := constantI S_ 1 1#1
  let main_v32 : IVec S_ 1 := (fun x v => Host.reduce IntOp.andi x v reducesTo_S85x56_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x640000 32) (main_arg2 : FVec F S128x85 .f32) (main_arg3 : FVec F S85 .f32) (main_arg4 : FVec F S128x85 .f32) (main_arg5 : FVec F S85x56 .f32) (main_arg6 : FVec F S56 .f32) (main_arg7 : FVec F S85x56 .f32) (main_arg8 : FVec F S56x28 .f32) (main_arg9 : FVec F S28 .f32) (main_arg10 : FVec F S56x28 .f32) (main_arg11 : FVec F S28x1 .f32) (main_arg12 : FVec F S1 .f32) (main_arg13 : FVec F S28x1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x85 .f32 := Host.absf main_arg2
  let main_cst_0 : FVec F S_ .f32 := constant S_ .f32 0x7F800000#32
  let main_v5 : FVec F S128x85 .f32 := broadcastInDim S128x85 ![] bcast_S_S128x85 main_cst_0
  let main_v6 : IVec S128x85 1 := cmpf .olt main_v4 main_v5
  let main_c_1 : IVec S_ 1 := constantI S_ 1 1#1
  let main_v7 : IVec S_ 1 := (fun x v => Host.reduce IntOp.andi x v reducesTo_S128x85_S_d0_1 h_S_) main_v6 main_c_1
  let main_v8 : IVec S_ 1 := andi main_v3 main_v7
  let main_v9 : FVec F S85 .f32 := Host.absf main_arg3
  let main_cst_2 : FVec F S_ .f32 := constant S_ .f32 0x7F800000#32
  let main_v10 : FVec F S85 .f32 := broadcastInDim S85 ![] bcast_S_S85 main_cst_2
  let main_v11 : IVec S85 1 := cmpf .olt main_v9 main_v10
  let main_c_3 : IVec S_ 1 := constantI S_ 1 1#1
  let main_v12 : IVec S_ 1 := (fun x v => Host.reduce IntOp.andi x v reducesTo_S85_S_d0 h_S_) main_v11 main_c_3
  let main_v13 : IVec S_ 1 := andi main_v8 main_v12
  let main_v14 : FVec F S128x85 .f32 := Host.absf main_arg4
  let main_cst_4 : FVec F S_ .f32 := constant S_ .f32 0x7F800000#32
  let main_v15 : FVec F S128x85 .f32 := broadcastInDim S128x85 ![] bcast_S_S128x85 main_cst_4
  let main_v16 : IVec S128x85 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x640000 : Shape := ⟨2, ![2, 640000]⟩
abbrev S128x85 : Shape := ⟨2, ![128, 85]⟩
abbrev S85 : Shape := ⟨1, ![85]⟩
abbrev S85x56 : Shape := ⟨2, ![85, 56]⟩
abbrev S56 : Shape := ⟨1, ![56]⟩
abbrev S56x28 : Shape := ⟨2, ![56, 28]⟩
abbrev S28 : Shape := ⟨1, ![28]⟩
abbrev S28x1 : Shape := ⟨2, ![28, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S100000x1 : Shape := ⟨2, ![100000, 1]⟩
abbrev S1x85 : Shape := ⟨2, ![1, 85]⟩
abbrev S100000x85 : Shape := ⟨2, ![100000, 85]⟩
abbrev S5000x128 : Shape := ⟨2, ![5000, 128]⟩
abbrev S5000x85 : Shape := ⟨2, ![5000, 85]⟩
abbrev S640000x85 : Shape := ⟨2, ![640000, 85]⟩
abbrev S1x56 : Shape := ⟨2, ![1, 56]⟩
abbrev S100000x56 : Shape := ⟨2, ![100000, 56]⟩
abbrev S5000x56 : Shape := ⟨2, ![5000, 56]⟩
abbrev S640000x56 : Shape := ⟨2, ![640000, 56]⟩
abbrev S1x28 : Shape := ⟨2, ![1, 28]⟩
abbrev S100000x28 : Shape := ⟨2, ![100000, 28]⟩
abbrev S5000x28 : Shape := ⟨2, ![5000, 28]⟩
abbrev S640000x28 : Shape := ⟨2, ![640000, 28]⟩
abbrev S1x1 : Shape := ⟨2, ![1, 1]⟩
abbrev S5000x1 : Shape := ⟨2, ![5000, 1]⟩

abbrev nBuf : Space → Nat
  | .hbm => 102
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x85, .f32⟩
  | .hbm, ⟨3, _⟩ => ⟨S85, .f32⟩
  | .hbm, ⟨4, _⟩ => ⟨S128x85, .f32⟩
  | .hbm, ⟨5, _⟩ => ⟨S85x56, .f32⟩
  | .hbm, ⟨6, _⟩ => ⟨S56, .f32⟩
  | .hbm, ⟨7, _⟩ => ⟨S85x56, .f32⟩
  | .hbm, ⟨8, _⟩ => ⟨S56x28, .f32⟩
  | .hbm, ⟨9, _⟩ => ⟨S28, .f32⟩
  | .hbm, ⟨10, _⟩ => ⟨S56x28, .f32⟩
  | .hbm, ⟨11, _⟩ => ⟨S28x1, .f32⟩
  | .hbm, ⟨12, _⟩ => ⟨S1, .f32⟩
  | .hbm, ⟨13, _⟩ => ⟨S28x1, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .f32⟩
  | .hbm, ⟨19, _⟩ => ⟨S640000, .f32⟩
  | .hbm, ⟨20, _⟩ => ⟨S_, .f32⟩
  | .hbm, ⟨21, _⟩ => ⟨S100000, .f32⟩
  | .hbm, ⟨22, _⟩ => ⟨S640000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .f32⟩
  | .hbm, ⟨39, _⟩ => ⟨S_, .f32⟩
  | .hbm, ⟨40, _⟩ => ⟨S100000x128, .f32⟩
  | .hbm, ⟨41, _⟩ => ⟨S640000x1, .i32⟩
  | .hbm, ⟨42, _⟩ => ⟨S100000x128, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S1x85, .f32⟩
  | .hbm, ⟨47, _⟩ => ⟨S100000x85, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x85, .f32⟩
  | .hbm, ⟨57, _⟩ => ⟨S_, .f32⟩
  | .hbm, ⟨58, _⟩ => ⟨S100000x85, .f32⟩
  | .hbm, ⟨59, _⟩ => ⟨S640000x1, .i32⟩
  | .hbm, ⟨60, _⟩ => ⟨S100000x85, .f32⟩
  | .hbm, ⟨61, _⟩ => ⟨S100000x1, .f32⟩
  | .hbm, ⟨62, _⟩ => ⟨S100000x85, .f32⟩
  | .hbm, ⟨63, _⟩ => ⟨S100000x85, .f32⟩
  | .hbm, ⟨64, _⟩ => ⟨S1x56, .f32⟩
  | .hbm, ⟨65, _⟩ => ⟨S100000x56, .f32⟩
  | .hbm, ⟨66, _⟩ => ⟨S_, .i32⟩
  | .hbm, ⟨67, _⟩ => ⟨S640000, .i32⟩
  | .hbm, ⟨68, _⟩ => ⟨S640000, .i1⟩
  | .hbm, ⟨69, _⟩ => ⟨S_, .i32⟩
  | .hbm, ⟨70, _⟩ => ⟨S640000, .i32⟩
  | .hbm, ⟨71, _⟩ => ⟨S640000, .i32⟩
  | .hbm, ⟨72, _⟩ => ⟨S640000, .i32⟩
  | .hbm, ⟨73, _⟩ => ⟨S640000x1, .i32⟩
  | .hbm, ⟨74, _⟩ => ⟨S640000x56, .f32⟩
  | .hbm, ⟨75, _⟩ => ⟨S_, .f32⟩
  | .hbm, ⟨76, _⟩ => ⟨S100000x56, .f32⟩
  | .hbm, ⟨77, _⟩ => ⟨S640000x1, .i32⟩
  | .hbm, ⟨78, _⟩ => ⟨S100000x56, .f32⟩
  | .hbm, ⟨79, _⟩ => ⟨S100000x1, .f32⟩
  | .hbm, ⟨80, _⟩ => ⟨S100000x56, .f32⟩
  | .hbm, ⟨81, _⟩ => ⟨S100000x56, .f32⟩
  | .hbm, ⟨82, _⟩ => ⟨S1x28, .f32⟩
  | .hbm, ⟨83, _⟩ => ⟨S100000x28, .f32⟩
  | .hbm, ⟨84, _⟩ => ⟨S_, .i32⟩
  | .hbm, ⟨85, _⟩ => ⟨S640000, .i32⟩
  | .hbm, ⟨86, _⟩ => ⟨S640000, .i1⟩
  | .hbm, ⟨87, _⟩ => ⟨S_, .i32⟩
  | .hbm, ⟨88, _⟩ => ⟨S640000, .i32⟩
  | .hbm, ⟨89, _⟩ => ⟨S640000, .i32⟩
  | .hbm, ⟨90, _⟩ => ⟨S640000, .i32⟩
  | .hbm, ⟨91, _⟩ => ⟨S640000x1, .i32⟩
  | .hbm, ⟨92, _⟩ => ⟨S640000x28, .f32⟩
  | .hbm, ⟨93, _⟩ => ⟨S_, .f32⟩
  | .hbm, ⟨94, _⟩ => ⟨S100000x28, .f32⟩
  | .hbm, ⟨95, _⟩ => ⟨S640000x1, .i32⟩
  | .hbm, ⟨96, _⟩ => ⟨S100000x28, .f32⟩
  | .hbm, ⟨97, _⟩ => ⟨S100000x1, .f32⟩
  | .hbm, ⟨98, _⟩ => ⟨S100000x28, .f32⟩
  | .hbm, ⟨99, _⟩ => ⟨S100000x28, .f32⟩
  | .hbm, ⟨100, _⟩ => ⟨S1x1, .f32⟩
  | .hbm, ⟨101, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x85, .f32⟩
  | .local _ .vmem, ⟨5, _⟩ => ⟨S128x85, .f32⟩
  | .local _ .vmem, ⟨6, _⟩ => ⟨S1x85, .f32⟩
  | .local _ .vmem, ⟨7, _⟩ => ⟨S5000x85, .f32⟩
  | .local _ .vmem, ⟨8, _⟩ => ⟨S5000x85, .f32⟩
  | .local _ .vmem, ⟨9, _⟩ => ⟨S5000x85, .f32⟩
  | .local _ .vmem, ⟨10, _⟩ => ⟨S5000x85, .f32⟩
  | .local _ .vmem, ⟨11, _⟩ => ⟨S5000x85, .f32⟩
  | .local _ .vmem, ⟨12, _⟩ => ⟨S5000x85, .f32⟩
  | .local _ .vmem, ⟨13, _⟩ => ⟨S85x56, .f32⟩
  | .local _ .vmem, ⟨14, _⟩ => ⟨S85x56, .f32⟩
  | .local _ .vmem, ⟨15, _⟩ => ⟨S1x56, .f32⟩
  | .local _ .vmem, ⟨16, _⟩ => ⟨S5000x56, .f32⟩
  | .local _ .vmem, ⟨17, _⟩ => ⟨S5000x56, .f32⟩
  | .local _ .vmem, ⟨18, _⟩ => ⟨S5000x56, .f32⟩
  | .local _ .vmem, ⟨19, _⟩ => ⟨S5000x56, .f32⟩
  | .local _ .vmem, ⟨20, _⟩ => ⟨S5000x56, .f32⟩
  | .local _ .vmem, ⟨21, _⟩ => ⟨S5000x56, .f32⟩
  | .local _ .vmem, ⟨22, _⟩ => ⟨S56x28, .f32⟩
  | .local _ .vmem, ⟨23, _⟩ => ⟨S56x28, .f32⟩
  | .local _ .vmem, ⟨24, _⟩ => ⟨S1x28, .f32⟩
  | .local _ .vmem, ⟨25, _⟩ => ⟨S5000x28, .f32⟩
  | .local _ .vmem, ⟨26, _⟩ => ⟨S5000x28, .f32⟩
  | .local _ .vmem, ⟨27, _⟩ => ⟨S5000x28, .f32⟩
  | .local _ .vmem, ⟨28, _⟩ => ⟨S5000x28, .f32⟩
  | .local _ .vmem, ⟨29, _⟩ => ⟨S5000x28, .f32⟩
  | .local _ .vmem, ⟨30, _⟩ => ⟨S5000x28, .f32⟩
  | .local _ .vmem, ⟨31, _⟩ => ⟨S28x1, .f32⟩
  | .local _ .vmem, ⟨32, _⟩ => ⟨S28x1, .f32⟩
  | .local _ .vmem, ⟨33, _⟩ => ⟨S1x1, .f32⟩
  | .local _ .vmem, ⟨34, _⟩ => ⟨S5000x1, .f32⟩
  | .local _ .vmem, ⟨35, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x85 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x85 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x85 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x85 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x85 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x85 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S85x56 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S85x56 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x56 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x56 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x56 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x56 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S56x28 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S56x28 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x28 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x28 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x28 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x28 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S28x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S28x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S85_S1x85 : S85.ShapeCasts S1x85
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x85_S128x85_0_0 : ∀ a, (![0, 0] : Fin 2 → Nat) a + S128x85.size a ≤ S128x85.size a
  h_S128x85 : 0 < S128x85.numel
  inb_S1x85_S1x85_0_0 : ∀ a, (![0, 0] : Fin 2 → Nat) a + S1x85.size a ≤ S1x85.size a
  h_S1x85 : 0 < S1x85.numel
  shapeCasts_S1x85_S1x85 : S1x85.ShapeCasts S1x85
  broadcasts_S1x85_S5000x85 : S1x85.Broadcasts S5000x85
  inb_S5000x85_S5000x85_0_0 : ∀ a, (![0, 0] : Fin 2 → Nat) a + S5000x85.size a ≤ S5000x85.size a
  h_S5000x85 : 0 < S5000x85.numel
  bcast_S_S100000x85 : S_.BroadcastsInDim S100000x85 (![] : Fin 0 → Fin S100000x85.rank)
  bcast_S100000x1_S100000x85_0_1 : S100000x1.BroadcastsInDim S100000x85 (![0, 1] : Fin 2 → Fin S100000x85.rank)
  shapeCasts_S56_S1x56 : S56.ShapeCasts S1x56
  shapeCasts_S5000x85_S5000x85 : S5000x85.ShapeCasts S5000x85
  inb_S85x56_S85x56_0_0 : ∀ a, (![0, 0] : Fin 2 → Nat) a + S85x56.size a ≤ S85x56.size a
  h_S85x56 : 0 < S85x56.numel
  inb_S1x56_S1x56_0_0 : ∀ a, (![0, 0] : Fin 2 → Nat) a + S1x56.size a ≤ S1x56.size a
  h_S1x56 : 0 < S1x56.numel
  shapeCasts_S1x56_S1x56 : S1x56.ShapeCasts S1x56
  broadcasts_S1x56_S5000x56 : S1x56.Broadcasts S5000x56
  inb_S5000x56_S5000x56_0_0 : ∀ a, (![0, 0] : Fin 2 → Nat) a + S5000x56.size a ≤ S5000x56.size a
  h_S5000x56 : 0 < S5000x56.numel
  bcast_S_S100000x56 : S_.BroadcastsInDim S100000x56 (![] : Fin 0 → Fin S100000x56.rank)
  bcast_S100000x1_S100000x56_0_1 : S100000x1.BroadcastsInDim S100000x56 (![0, 1] : Fin 2 → Fin S100000x56.rank)
  shapeCasts_S28_S1x28 : S28.ShapeCasts S1x28
  shapeCasts_S5000x56_S5000x56 : S5000x56.ShapeCasts S5000x56
  inb_S56x28_S56x28_0_0 : ∀ a, (![0, 0] : Fin 2 → Nat) a + S56x28.size a ≤ S56x28.size a
  h_S56x28 : 0 < S56x28.numel
  inb_S1x28_S1x28_0_0 : ∀ a, (![0, 0] : Fin 2 → Nat) a + S1x28.size a ≤ S1x28.size a
  h_S1x28 : 0 < S1x28.numel
  shapeCasts_S1x28_S1x28 : S1x28.ShapeCasts S1x28
  broadcasts_S1x28_S5000x28 : S1x28.Broadcasts S5000x28
  inb_S5000x28_S5000x28_0_0 : ∀ a, (![0, 0] : Fin 2 → Nat) a + S5000x28.size a ≤ S5000x28.size a
  h_S5000x28 : 0 < S5000x28.numel
  bcast_S_S100000x28 : S_.BroadcastsInDim S100000x28 (![] : Fin 0 → Fin S100000x28.rank)
  bcast_S100000x1_S100000x28_0_1 : S100000x1.BroadcastsInDim S100000x28 (![0, 1] : Fin 2 → Fin S100000x28.rank)
  shapeCasts_S1_S1x1 : S1.ShapeCasts S1x1
  shapeCasts_S5000x28_S5000x28 : S5000x28.ShapeCasts S5000x28
  inb_S28x1_S28x1_0_0 : ∀ a, (![0, 0] : Fin 2 → Nat) a + S28x1.size a ≤ S28x1.size a
  h_S28x1 : 0 < S28x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x85_S5000x85_1_0_0_1_n_n_wf : DotDims.WF S5000x128 S128x85 S5000x85 [1] [0] [0] [1] [] []
  gather_S100000x85_S640000x1_S640000x85_1_0_n_n_0_1_185_wf : GatherDims.WF S100000x85 S640000x1 S640000x85 [1] [0] [] [0] [] 1 ![1, 85]
  scatter_S100000x85_S640000x1_S640000x85_1_0_0_1_wf : ScatterDims.WF S100000x85 S640000x1 S640000x85 [1] [0] [0] 1
  dot_S5000x85_S85x56_S5000x56_1_0_0_1_n_n_wf : DotDims.WF S5000x85 S85x56 S5000x56 [1] [0] [0] [1] [] []
  gather_S100000x56_S640000x1_S640000x56_1_0_n_n_0_1_156_wf : GatherDims.WF S100000x56 S640000x1 S640000x56 [1] [0] [] [0] [] 1 ![1, 56]
  scatter_S100000x56_S640000x1_S640000x56_1_0_0_1_wf : ScatterDims.WF S100000x56 S640000x1 S640000x56 [1] [0] [0] 1
  dot_S5000x56_S56x28_S5000x28_1_0_0_1_n_n_wf : DotDims.WF S5000x56 S56x28 S5000x28 [1] [0] [0] [1] [] []
  gather_S100000x28_S640000x1_S640000x28_1_0_n_n_0_1_128_wf : GatherDims.WF S100000x28 S640000x1 S640000x28 [1] [0] [] [0] [] 1 ![1, 28]
  scatter_S100000x28_S640000x1_S640000x28_1_0_0_1_wf : ScatterDims.WF S100000x28 S640000x1 S640000x28 [1] [0] [0] 1
  dot_S5000x28_S28x1_S5000x1_1_0_0_1_n_n_wf : DotDims.WF S5000x28 S28x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x85.size a ≤ S128x85.size a
  hwx0_2 : ∀ i : grid0.Coords, EltTy.bits .f32 = 32 ∨ (Rect.block (s := S128x85) S128x85.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x85.size a ≤ S128x85.size a
  hwx0_3 : ∀ i : grid0.Coords, EltTy.bits .f32 = 32 ∨ (Rect.block (s := S128x85) S128x85.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x85.size a ≤ S1x85.size a
  hwx0_4 : ∀ i : grid0.Coords, EltTy.bits .f32 = 32 ∨ (Rect.block (s := S1x85) S1x85.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x85.size a ≤ S100000x85.size a
  hwx0_5 : ∀ i : grid0.Coords, EltTy.bits .f32 = 32 ∨ (Rect.block (s := S100000x85) S5000x85.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x85.size a ≤ S100000x85.size a
  hwx1_0 : ∀ i : grid1.Coords, EltTy.bits .f32 = 32 ∨ (Rect.block (s := S100000x85) S5000x85.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x85.size a ≤ S100000x85.size a
  hwx1_1 : ∀ i : grid1.Coords, EltTy.bits .f32 = 32 ∨ (Rect.block (s := S100000x85) S5000x85.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S85x56.size a ≤ S85x56.size a
  hwx1_2 : ∀ i : grid1.Coords, EltTy.bits .f32 = 32 ∨ (Rect.block (s := S85x56) S85x56.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S85x56.size a ≤ S85x56.size a
  hwx1_3 : ∀ i : grid1.Coords, EltTy.bits .f32 = 32 ∨ (Rect.block (s := S85x56) S85x56.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x56.size a ≤ S1x56.size a
  hwx1_4 : ∀ i : grid1.Coords, EltTy.bits .f32 = 32 ∨ (Rect.block (s := S1x56) S1x56.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x56.size a ≤ S100000x56.size a
  hwx1_5 : ∀ i : grid1.Coords, EltTy.bits .f32 = 32 ∨ (Rect.block (s := S100000x56) S5000x56.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x56.size a ≤ S100000x56.size a
  hwx2_0 : ∀ i : grid2.Coords, EltTy.bits .f32 = 32 ∨ (Rect.block (s := S100000x56) S5000x56.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x56.size a ≤ S100000x56.size a
  hwx2_1 : ∀ i : grid2.Coords, EltTy.bits .f32 = 32 ∨ (Rect.block (s := S100000x56) S5000x56.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S56x28.size a ≤ S56x28.size a
  hwx2_2 : ∀ i : grid2.Coords, EltTy.bits .f32 = 32 ∨ (Rect.block (s := S56x28) S56x28.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S56x28.size a ≤ S56x28.size a
  hwx2_3 : ∀ i : grid2.Coords, EltTy.bits .f32 = 32 ∨ (Rect.block (s := S56x28) S56x28.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x28.size a ≤ S1x28.size a
  hwx2_4 : ∀ i : grid2.Coords, EltTy.bits .f32 = 32 ∨ (Rect.block (s := S1x28) S1x28.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x28.size a ≤ S100000x28.size a
  hwx2_5 : ∀ i : grid2.Coords, EltTy.bits .f32 = 32 ∨ (Rect.block (s := S100000x28) S5000x28.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x28.size a ≤ S100000x28.size a
  hwx3_0 : ∀ i : grid3.Coords, EltTy.bits .f32 = 32 ∨ (Rect.block (s := S100000x28) S5000x28.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x28.size a ≤ S100000x28.size a
  hwx3_1 : ∀ i : grid3.Coords, EltTy.bits .f32 = 32 ∨ (Rect.block (s := S100000x28) S5000x28.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S28x1.size a ≤ S28x1.size a
  hwx3_2 : ∀ i : grid3.Coords, EltTy.bits .f32 = 32 ∨ (Rect.block (s := S28x1) S28x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S28x1.size a ≤ S28x1.size a
  hwx3_3 : ∀ i : grid3.Coords, EltTy.bits .f32 = 32 ∨ (Rect.block (s := S28x1) S28x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x85_S5000x85_1_0_0_1_n_n : DotDims S5000x128 S128x85 S5000x85 where
  lhsContracting := [1]
  rhsContracting := [0]
  lhsNonContracting := [0]
  rhsNonContracting := [1]
  lhsBatch := []
  rhsBatch := []
  wf := dot_S5000x128_S128x85_S5000x85_1_0_0_1_n_n_wf
def gather_S100000x85_S640000x1_S640000x85_1_0_n_n_0_1_185 : GatherDims S100000x85 S640000x1 S640000x85 where
  offsetDims := [1]
  collapsedSliceDims := [0]
  operandBatchingDims := []
  startIndicesBatchingDims := []
  startIndexMap := [0]
  indexVectorDim := 1
  sliceSizes := ![1, 85]
  wf := gather_S100000x85_S640000x1_S640000x85_1_0_n_n_0_1_185_wf
def scatter_S100000x85_S640000x1_S640000x85_1_0_0_1 : ScatterDims S100000x85 S640000x1 S640000x85 where
  updateWindowDims := [1]
  insertedWindowDims := [0]
  scatterDimsToOperandDims := [0]
  indexVectorDim := 1
  wf := scatter_S100000x85_S640000x1_S640000x85_1_0_0_1_wf
def dot_S5000x85_S85x56_S5000x56_1_0_0_1_n_n : DotDims S5000x85 S85x56 S5000x56 where
  lhsContracting := [1]
  rhsContracting := [0]
  lhsNonContracting := [0]
  rhsNonContracting := [1]
  lhsBatch := []
  rhsBatch := []
  wf := dot_S5000x85_S85x56_S5000x56_1_0_0_1_n_n_wf
def gather_S100000x56_S640000x1_S640000x56_1_0_n_n_0_1_156 : GatherDims S100000x56 S640000x1 S640000x56 where
  offsetDims := [1]
  collapsedSliceDims := [0]
  operandBatchingDims := []
  startIndicesBatchingDims := []
  startIndexMap := [0]
  indexVectorDim := 1
  sliceSizes := ![1, 56]
  wf := gather_S100000x56_S640000x1_S640000x56_1_0_n_n_0_1_156_wf
def scatter_S100000x56_S640000x1_S640000x56_1_0_0_1 : ScatterDims S100000x56 S640000x1 S640000x56 where
  updateWindowDims := [1]
  insertedWindowDims := [0]
  scatterDimsToOperandDims := [0]
  indexVectorDim := 1
  wf := scatter_S100000x56_S640000x1_S640000x56_1_0_0_1_wf
def dot_S5000x56_S56x28_S5000x28_1_0_0_1_n_n : DotDims S5000x56 S56x28 S5000x28 where
  lhsContracting := [1]
  rhsContracting := [0]
  lhsNonContracting := [0]
  rhsNonContracting := [1]
  lhsBatch := []
  rhsBatch := []
  wf := dot_S5000x56_S56x28_S5000x28_1_0_0_1_n_n_wf
def gather_S100000x28_S640000x1_S640000x28_1_0_n_n_0_1_128 : GatherDims S100000x28 S640000x1 S640000x28 where
  offsetDims := [1]
  collapsedSliceDims := [0]
  operandBatchingDims := []
  startIndicesBatchingDims := []
  startIndexMap := [0]
  indexVectorDim := 1
  sliceSizes := ![1, 28]
  wf := gather_S100000x28_S640000x1_S640000x28_1_0_n_n_0_1_128_wf
def scatter_S100000x28_S640000x1_S640000x28_1_0_0_1 : ScatterDims S100000x28 S640000x1 S640000x28 where
  updateWindowDims := [1]
  insertedWindowDims := [0]
  scatterDimsToOperandDims := [0]
  indexVectorDim := 1
  wf := scatter_S100000x28_S640000x1_S640000x28_1_0_0_1_wf
def dot_S5000x28_S28x1_S5000x1_1_0_0_1_n_n : DotDims S5000x28 S28x1 S5000x1 where
  lhsContracting := [1]
  rhsContracting := [0]
  lhsNonContracting := [0]
  rhsNonContracting := [1]
  lhsBatch := []
  rhsBatch := []
  wf := dot_S5000x28_S28x1_S5000x1_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x85.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x85.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x85.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x85.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x85.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x85.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S85x56.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S85x56.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x56.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x56.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x56.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x56.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S56x28.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S56x28.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x28.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x28.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v69) S5000x28.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S5000x28.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S28x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S28x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S5000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x85 : Shape := ⟨2, ![128, 85]⟩
abbrev S85 : Shape := ⟨1, ![85]⟩
abbrev S85x56 : Shape := ⟨2, ![85, 56]⟩
abbrev S56 : Shape := ⟨1, ![56]⟩
abbrev S56x28 : Shape := ⟨2, ![56, 28]⟩
abbrev S28 : Shape := ⟨1, ![28]⟩
abbrev S28x1 : Shape := ⟨2, ![28, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S100000x85 : Shape := ⟨2, ![100000, 85]⟩
abbrev S1x85 : Shape := ⟨2, ![1, 85]⟩
abbrev S640000x85 : Shape := ⟨2, ![640000, 85]⟩
abbrev S100000x56 : Shape := ⟨2, ![100000, 56]⟩
abbrev S1x56 : Shape := ⟨2, ![1, 56]⟩
abbrev S640000x56 : Shape := ⟨2, ![640000, 56]⟩
abbrev S100000x28 : Shape := ⟨2, ![100000, 28]⟩
abbrev S1x28 : Shape := ⟨2, ![1, 28]⟩
abbrev S640000x28 : Shape := ⟨2, ![640000, 28]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S2x640000, .i32⟩
  | 2 => ⟨S128x85, .f32⟩
  | 3 => ⟨S85, .f32⟩
  | 4 => ⟨S128x85, .f32⟩
  | 5 => ⟨S85x56, .f32⟩
  | 6 => ⟨S56, .f32⟩
  | 7 => ⟨S85x56, .f32⟩
  | 8 => ⟨S56x28, .f32⟩
  | 9 => ⟨S28, .f32⟩
  | 10 => ⟨S56x28, .f32⟩
  | 11 => ⟨S28x1, .f32⟩
  | 12 => ⟨S1, .f32⟩
  | 13 => ⟨S28x1, .f32⟩
  | 14 => ⟨S1x640000, .i32⟩
  | 15 => ⟨S640000, .i32⟩
  | 16 => ⟨S1x640000, .i32⟩
  | 17 => ⟨S640000, .i32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x128, .f32⟩
  | 27 => ⟨S_, .f32⟩
  | 28 => ⟨S100000x128, .f32⟩
  | 29 => ⟨S640000x1, .i32⟩
  | 30 => ⟨S100000x128, .f32⟩
  | 31 => ⟨S_, .f32⟩
  | 32 => ⟨S640000, .f32⟩
  | 33 => ⟨S_, .f32⟩
  | 34 => ⟨S100000, .f32⟩
  | 35 => ⟨S640000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x128, .f32⟩
  | 42 => ⟨S100000x128, .f32⟩
  | 43 => ⟨S100000x85, .f32⟩
  | 44 => ⟨S1x85, .f32⟩
  | 45 => ⟨S100000x85, .f32⟩
  | 46 => ⟨S100000x85, .f32⟩
  | 47 => ⟨S100000x85, .f32⟩
  | 48 => ⟨S100000x85, .f32⟩
  | 49 => ⟨S_, .i32⟩
  | 50 => ⟨S640000, .i32⟩
  | 51 => ⟨S640000, .i1⟩
  | 52 => ⟨S_, .i32⟩
  | 53 => ⟨S640000, .i32⟩
  | 54 => ⟨S640000, .i32⟩
  | 55 => ⟨S640000, .i32⟩
  | 56 => ⟨S640000x1, .i32⟩
  | 57 => ⟨S640000x85, .f32⟩
  | 58 => ⟨S_, .f32⟩
  | 59 => ⟨S100000x85, .f32⟩
  | 60 => ⟨S640000x1, .i32⟩
  | 61 => ⟨S100000x85, .f32⟩
  | 62 => ⟨S_, .f32⟩
  | 63 => ⟨S640000, .f32⟩
  | 64 => ⟨S_, .f32⟩
  | 65 => ⟨S100000, .f32⟩
  | 66 => ⟨S640000x1, .i32⟩
  | 67 => ⟨S100000, .f32⟩
  | 68 => ⟨S_, .f32⟩
  | 69 => ⟨S100000, .f32⟩
  | 70 => ⟨S100000, .f32⟩
  | 71 => ⟨S100000x1, .f32⟩
  | 72 => ⟨S100000x85, .f32⟩
  | 73 => ⟨S100000x85, .f32⟩
  | 74 => ⟨S100000x56, .f32⟩
  | 75 => ⟨S1x56, .f32⟩
  | 76 => ⟨S100000x56, .f32⟩
  | 77 => ⟨S100000x56, .f32⟩
  | 78 => ⟨S100000x56, .f32⟩
  | 79 => ⟨S100000x56, .f32⟩
  | 80 => ⟨S_, .i32⟩
  | 81 => ⟨S640000, .i32⟩
  | 82 => ⟨S640000, .i1⟩
  | 83 => ⟨S_, .i32⟩
  | 84 => ⟨S640000, .i32⟩
  | 85 => ⟨S640000, .i32⟩
  | 86 => ⟨S640000, .i32⟩
  | 87 => ⟨S640000x1, .i32⟩
  | 88 => ⟨S640000x56, .f32⟩
  | 89 => ⟨S_, .f32⟩
  | 90 => ⟨S100000x56, .f32⟩
  | 91 => ⟨S640000x1, .i32⟩
  | 92 => ⟨S100000x56, .f32⟩
  | 93 => ⟨S_, .f32⟩
  | 94 => ⟨S640000, .f32⟩
  | 95 => ⟨S_, .f32⟩
  | 96 => ⟨S100000, .f32⟩
  | 97 => ⟨S640000x1, .i32⟩
  | 98 => ⟨S100000, .f32⟩
  | 99 => ⟨S_, .f32⟩
  | 100 => ⟨S100000, .f32⟩
  | 101 => ⟨S100000, .f32⟩
  | 102 => ⟨S100000x1, .f32⟩
  | 103 => ⟨S100000x56, .f32⟩
  | 104 => ⟨S100000x56, .f32⟩
  | 105 => ⟨S100000x28, .f32⟩
  | 106 => ⟨S1x28, .f32⟩
  | 107 => ⟨S100000x28, .f32⟩
  | 108 => ⟨S100000x28, .f32⟩
  | 109 => ⟨S100000x28, .f32⟩
  | 110 => ⟨S100000x28, .f32⟩
  | 111 => ⟨S_, .i32⟩
  | 112 => ⟨S640000, .i32⟩
  | 113 => ⟨S640000, .i1⟩
  | 114 => ⟨S_, .i32⟩
  | 115 => ⟨S640000, .i32⟩
  | 116 => ⟨S640000, .i32⟩
  | 117 => ⟨S640000, .i32⟩
  | 118 => ⟨S640000x1, .i32⟩
  | 119 => ⟨S640000x28, .f32⟩
  | 120 => ⟨S_, .f32⟩
  | 121 => ⟨S100000x28, .f32⟩
  | 122 => ⟨S640000x1, .i32⟩
  | 123 => ⟨S100000x28, .f32⟩
  | 124 => ⟨S_, .f32⟩
  | 125 => ⟨S640000, .f32⟩
  | 126 => ⟨S_, .f32⟩
  | 127 => ⟨S100000, .f32⟩
  | _ => ⟨S100000x128, .f32⟩

abbrev hbmTy0_1 (i : Nat) : BufTy := match i % 128 with
  | 0 => ⟨S640000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x28, .f32⟩
  | 7 => ⟨S100000x28, .f32⟩
  | 8 => ⟨S100000x1, .f32⟩
  | 9 => ⟨S1x1, .f32⟩
  | 10 => ⟨S100000x1, .f32⟩
  | 11 => ⟨S100000x1, .f32⟩
  | 12 => ⟨S100000x1, .f32⟩
  | 13 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_16 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_cst_20 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_21 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S85_S1x85_1 : S85.BroadcastsInDim S1x85 (![1] : Fin 1 → Fin S1x85.rank)
  bcast_S1x85_S100000x85_0_1 : S1x85.BroadcastsInDim S100000x85 (![0, 1] : Fin 2 → Fin S100000x85.rank)
  bcast_S_S100000x85 : S_.BroadcastsInDim S100000x85 (![] : Fin 0 → Fin S100000x85.rank)
  bcast_S100000x1_S100000x85_0_1 : S100000x1.BroadcastsInDim S100000x85 (![0, 1] : Fin 2 → Fin S100000x85.rank)
  bcast_S56_S1x56_1 : S56.BroadcastsInDim S1x56 (![1] : Fin 1 → Fin S1x56.rank)
  bcast_S1x56_S100000x56_0_1 : S1x56.BroadcastsInDim S100000x56 (![0, 1] : Fin 2 → Fin S100000x56.rank)
  bcast_S_S100000x56 : S_.BroadcastsInDim S100000x56 (![] : Fin 0 → Fin S100000x56.rank)
  bcast_S100000x1_S100000x56_0_1 : S100000x1.BroadcastsInDim S100000x56 (![0, 1] : Fin 2 → Fin S100000x56.rank)
  bcast_S28_S1x28_1 : S28.BroadcastsInDim S1x28 (![1] : Fin 1 → Fin S1x28.rank)
  bcast_S1x28_S100000x28_0_1 : S1x28.BroadcastsInDim S100000x28 (![0, 1] : Fin 2 → Fin S100000x28.rank)
  bcast_S_S100000x28 : S_.BroadcastsInDim S100000x28 (![] : Fin 0 → Fin S100000x28.rank)
  bcast_S100000x1_S100000x28_0_1 : S100000x1.BroadcastsInDim S100000x28 (![0, 1] : Fin 2 → Fin S100000x28.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x85_S100000x85_1_0_0_1_n_n_wf : DotDims.WF S100000x128 S128x85 S100000x85 [1] [0] [0] [1] [] []
  gather_S100000x85_S640000x1_S640000x85_1_0_n_n_0_1_185_wf : GatherDims.WF S100000x85 S640000x1 S640000x85 [1] [0] [] [0] [] 1 ![1, 85]
  scatter_S100000x85_S640000x1_S640000x85_1_0_0_1_wf : ScatterDims.WF S100000x85 S640000x1 S640000x85 [1] [0] [0] 1
  dot_S100000x85_S85x56_S100000x56_1_0_0_1_n_n_wf : DotDims.WF S100000x85 S85x56 S100000x56 [1] [0] [0] [1] [] []
  gather_S100000x56_S640000x1_S640000x56_1_0_n_n_0_1_156_wf : GatherDims.WF S100000x56 S640000x1 S640000x56 [1] [0] [] [0] [] 1 ![1, 56]
  scatter_S100000x56_S640000x1_S640000x56_1_0_0_1_wf : ScatterDims.WF S100000x56 S640000x1 S640000x56 [1] [0] [0] 1
  dot_S100000x56_S56x28_S100000x28_1_0_0_1_n_n_wf : DotDims.WF S100000x56 S56x28 S100000x28 [1] [0] [0] [1] [] []
  gather_S100000x28_S640000x1_S640000x28_1_0_n_n_0_1_128_wf : GatherDims.WF S100000x28 S640000x1 S640000x28 [1] [0] [] [0] [] 1 ![1, 28]
  scatter_S100000x28_S640000x1_S640000x28_1_0_0_1_wf : ScatterDims.WF S100000x28 S640000x1 S640000x28 [1] [0] [0] 1
  dot_S100000x28_S28x1_S100000x1_1_0_0_1_n_n_wf : DotDims.WF S100000x28 S28x1 S100000x1 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x85_S100000x85_1_0_0_1_n_n : DotDims S100000x128 S128x85 S100000x85 where
  lhsContracting := [1]
  rhsContracting := [0]
  lhsNonContracting := [0]
  rhsNonContracting := [1]
  lhsBatch := []
  rhsBatch := []
  wf := dot_S100000x128_S128x85_S100000x85_1_0_0_1_n_n_wf
def gather_S100000x85_S640000x1_S640000x85_1_0_n_n_0_1_185 : GatherDims S100000x85 S640000x1 S640000x85 where
  offsetDims := [1]
  collapsedSliceDims := [0]
  operandBatchingDims := []
  startIndicesBatchingDims := []
  startIndexMap := [0]
  indexVectorDim := 1
  sliceSizes := ![1, 85]
  wf := gather_S100000x85_S640000x1_S640000x85_1_0_n_n_0_1_185_wf
def scatter_S100000x85_S640000x1_S640000x85_1_0_0_1 : ScatterDims S100000x85 S640000x1 S640000x85 where
  updateWindowDims := [1]
  insertedWindowDims := [0]
  scatterDimsToOperandDims := [0]
  indexVectorDim := 1
  wf := scatter_S100000x85_S640000x1_S640000x85_1_0_0_1_wf
def dot_S100000x85_S85x56_S100000x56_1_0_0_1_n_n : DotDims S100000x85 S85x56 S100000x56 where
  lhsContracting := [1]
  rhsContracting := [0]
  lhsNonContracting := [0]
  rhsNonContracting := [1]
  lhsBatch := []
  rhsBatch := []
  wf := dot_S100000x85_S85x56_S100000x56_1_0_0_1_n_n_wf
def gather_S100000x56_S640000x1_S640000x56_1_0_n_n_0_1_156 : GatherDims S100000x56 S640000x1 S640000x56 where
  offsetDims := [1]
  collapsedSliceDims := [0]
  operandBatchingDims := []
  startIndicesBatchingDims := []
  startIndexMap := [0]
  indexVectorDim := 1
  sliceSizes := ![1, 56]
  wf := gather_S100000x56_S640000x1_S640000x56_1_0_n_n_0_1_156_wf
def scatter_S100000x56_S640000x1_S640000x56_1_0_0_1 : ScatterDims S100000x56 S640000x1 S640000x56 where
  updateWindowDims := [1]
  insertedWindowDims := [0]
  scatterDimsToOperandDims := [0]
  indexVectorDim := 1
  wf := scatter_S100000x56_S640000x1_S640000x56_1_0_0_1_wf
def dot_S100000x56_S56x28_S100000x28_1_0_0_1_n_n : DotDims S100000x56 S56x28 S100000x28 where
  lhsContracting := [1]
  rhsContracting := [0]
  lhsNonContracting := [0]
  rhsNonContracting := [1]
  lhsBatch := []
  rhsBatch := []
  wf := dot_S100000x56_S56x28_S100000x28_1_0_0_1_n_n_wf
def gather_S100000x28_S640000x1_S640000x28_1_0_n_n_0_1_128 : GatherDims S100000x28 S640000x1 S640000x28 where
  offsetDims := [1]
  collapsedSliceDims := [0]
  operandBatchingDims := []
  startIndicesBatchingDims := []
  startIndexMap := [0]
  indexVectorDim := 1
  sliceSizes := ![1, 28]
  wf := gather_S100000x28_S640000x1_S640000x28_1_0_n_n_0_1_128_wf
def scatter_S100000x28_S640000x1_S640000x28_1_0_0_1 : ScatterDims S100000x28 S640000x1 S640000x28 where
  updateWindowDims := [1]
  insertedWindowDims := [0]
  scatterDimsToOperandDims := [0]
  indexVectorDim := 1
  wf := scatter_S100000x28_S640000x1_S640000x28_1_0_0_1_wf
def dot_S100000x28_S28x1_S100000x1_1_0_0_1_n_n : DotDims S100000x28 S28x1 S100000x1 where
  lhsContracting := [1]
  rhsContracting := [0]
  lhsNonContracting := [0]
  rhsNonContracting := [1]
  lhsBatch := []
  rhsBatch := []
  wf := dot_S100000x28_S28x1_S100000x1_1_0_0_1_n_n_wf

class Facts : Prop extends Facts₀ where

variable [Facts]
-- ==== Proof.KRun.lean ====
/-
  The idealized kernel program's run with its result named.

  The program is four pipelined regions among stretches of host operations. Run from any memory with zero counters,
  every weakly fair execution terminates without a fault; the result array ends holding what the last region's
  write-backs leave, folded through the whole program from the launch memory (the contents at the last segment
  boundary), and every argument array ends as launched. This is the launch theorem for a program of several
  regions applied to the program's segments, the final thread state read at the result's buffer as well as at the
  arguments'.
-/
import proofs.«167564_j6425271074972_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents and the arguments as launched. -/
theorem run_result : θ_run defs (onTc (τ := τ) (main (F := F))) ⟨m, fun _ => 0, ρ⟩ (fun r => ∀ c : Dev nD,
      r.2.mem ((c.tc : Thread nD τ).loc main_v71) = W8 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v71 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.KRun

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Layer.lean ====
/-
  One layer of the graph network, read entry by entry over the extended reals.

  A layer takes the node features x (n rows, din columns), the per-node sums agg of the neighbours' features, and the
  node degrees deg, and returns (agg / max(deg, 1)) · Wl + bl + x · Wr. The kernel's program scales agg by the
  reciprocal 1 / max(deg, 1), computed once, and adds the bias last; the reference divides agg by max(deg, 1) and adds
  the bias between the two products. Both are the same function of their arguments:
    * max(deg, 1) is at least 1, so it is not zero, and on the extended reals a quotient by a nonzero y is the
      product with y⁻¹ — hence a · (1 / y) = a / y for every extended real a, infinite ones included;
    * addition of extended reals is commutative and associative, so the bias may be added before or after the
      second product.
-/
import Idealize.ShloMosaic.PureOps.Ideal.Laws
import Idealize.ShloMosaic.Lib.ValueIdx
import Idealize.ShloMosaic.Lib.ValueLayout
import Idealize.ShloMosaic.Lib.IdealHost
import proofs.«167564_j6425271074972_1_alg».proof.Proof.LibPlainContract
import proofs.«167564_j6425271074972_1_alg».proof.Proof.LibKeepdims

noncomputable section

namespace Cert.Sage

open Idealize.ShloMosaic Idealize.ShloMosaic.ValueIdx

/-- The linear stage at entry (p, q): the sum over k of mean[p, k] · wl[k, q], plus the sum over k of
    x[p, k] · wr[k, q], plus the bias b[0, q]. -/
def linAt {n din dout : Nat} (mean x : (⟨2, ![n, din]⟩ : Shape).Idx → EReal)
    (wl wr : (⟨2, ![din, dout]⟩ : Shape).Idx → EReal) (b : (⟨2, ![1, dout]⟩ : Shape).Idx → EReal)
    (p : Fin n) (q : Fin dout) : EReal :=
  (∑ k : Fin din, mean (ix2 p k) * wl (ix2 k q)) + (∑ k : Fin din, x (ix2 p k) * wr (ix2 k q)) + b (ix2 (0 : Fin 1) q)

/-- The linear stage as a whole array. -/
def lin {n din dout : Nat} (mean x : (⟨2, ![n, din]⟩ : Shape).Idx → EReal)
    (wl wr : (⟨2, ![din, dout]⟩ : Shape).Idx → EReal) (b : (⟨2, ![1, dout]⟩ : Shape).Idx → EReal) :
    (⟨2, ![n, dout]⟩ : Shape).Idx → EReal :=
  fun i => linAt mean x wl wr b (i 0) (i 1)

theorem lin_apply {n din dout : Nat} (mean x : (⟨2, ![n, din]⟩ : Shape).Idx → EReal)
    (wl wr : (⟨2, ![din, dout]⟩ : Shape).Idx → EReal) (b : (⟨2, ![1, dout]⟩ : Shape).Idx → EReal)
    (p : Fin n) (q : Fin dout) : lin mean x wl wr b (ix2 p q) = linAt mean x wl wr b p q := rfl

/-- A product with the reciprocal of a number that is at least one is the quotient by it, on every extended real. -/
theorem mul_div_one_eq_div (a d : EReal) (hd : 1 ≤ d) : a * Ideal.div 1 d = Ideal.div a d := by
  have h0 : d ≠ 0 := fun h => absurd (h ▸ hd) (not_le.mpr zero_lt_one)
  unfold Ideal.div
  rw [if_neg h0, if_neg h0, one_mul]

/-- A bias vector of length b laid out as a [1, b] row by the host's broadcast along the axes [1]. -/
theorem broadcastInDim_b_1b_apply {α : Type} {b : ℕ} (v : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (q : Fin b) : broadcastInDim ⟨2, ![1, b]⟩ ![1] h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A [1, b] row spread over a rows by the host's broadcast along the axes [0, 1]. -/
theorem broadcastInDim_1b_ab_apply {α : Type} {a b : ℕ} (v : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (q : Fin b) : broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- THE LAYER LAW. The kernel program's layer — the linear stage of agg scaled by the spread reciprocal degree, with
    the bias row made by a shape cast — is the reference's layer — agg divided by the spread degree, times wl, plus
    the spread bias, plus x times wr — as whole arrays, for every extended-real content of the arrays. -/
theorem layer_eq {n din dout : Nat}
    (agg x : FVec Ideal ⟨2, ![n, din]⟩ .f32) (wl wr : FVec Ideal ⟨2, ![din, dout]⟩ .f32)
    (bl : FVec Ideal ⟨1, ![dout]⟩ .f32) (deg one : FVec Ideal ⟨1, ![n]⟩ .f32)
    (hone : ∀ i, one i = 1)
    (d : DotDims ⟨2, ![n, din]⟩ ⟨2, ![din, dout]⟩ ⟨2, ![n, dout]⟩) (hd : d = DotDims.plain n din dout)
    (hb1 : (⟨1, ![n]⟩ : Shape).BroadcastsInDim ⟨2, ![n, 1]⟩ (![0] : Fin 1 → Fin (⟨2, ![n, 1]⟩ : Shape).rank))
    (hb2 : (⟨2, ![n, 1]⟩ : Shape).BroadcastsInDim ⟨2, ![n, din]⟩ (![0, 1] : Fin 2 → Fin (⟨2, ![n, din]⟩ : Shape).rank))
    (hb3 : (⟨1, ![dout]⟩ : Shape).BroadcastsInDim ⟨2, ![1, dout]⟩ (![1] : Fin 1 → Fin (⟨2, ![1, dout]⟩ : Shape).rank))
    (hb4 : (⟨2, ![1, dout]⟩ : Shape).BroadcastsInDim ⟨2, ![n, dout]⟩ (![0, 1] : Fin 2 → Fin (⟨2, ![n, dout]⟩ : Shape).rank))
    (hsc : (⟨1, ![dout]⟩ : Shape).ShapeCasts ⟨2, ![1, dout]⟩) :
    lin (mulf agg (broadcastInDim ⟨2, ![n, din]⟩ ![0, 1] hb2 (broadcastInDim ⟨2, ![n, 1]⟩ ![0] hb1
            (Host.divf one (maximumf deg one)))))
        x wl wr (shapeCast ⟨2, ![1, dout]⟩ bl hsc)
      = addf (addf (Host.dotGeneral d none
              (Host.divf agg (broadcastInDim ⟨2, ![n, din]⟩ ![0, 1] hb2 (broadcastInDim ⟨2, ![n, 1]⟩ ![0] hb1
                (maximumf deg one)))) wl)
            (broadcastInDim ⟨2, ![n, dout]⟩ ![0, 1] hb4 (broadcastInDim ⟨2, ![1, dout]⟩ ![1] hb3 bl)))
          (Host.dotGeneral d none x wr) := by
  subst hd
  funext i
  obtain ⟨p, q, rfl⟩ : ∃ (p : Fin n) (q : Fin dout), i = ix2 p q := ⟨i 0, i 1, eq_ix2 i⟩
  rw [lin_apply, addf_apply, addf_apply]
  unfold Host.dotGeneral
  rw [Cert.LibPlainContract.dotGeneral_plain_apply, Cert.LibPlainContract.dotGeneral_plain_apply]
  rw [broadcastInDim_1b_ab_apply, broadcastInDim_b_1b_apply]
  unfold linAt
  rw [shapeCast_a_1a_apply]
  have hsum : ∀ k : Fin din,
      mulf agg (broadcastInDim ⟨2, ![n, din]⟩ ![0, 1] hb2 (broadcastInDim ⟨2, ![n, 1]⟩ ![0] hb1
            (Host.divf one (maximumf deg one)))) (ix2 p k)
        = Host.divf agg (broadcastInDim ⟨2, ![n, din]⟩ ![0, 1] hb2 (broadcastInDim ⟨2, ![n, 1]⟩ ![0] hb1
                (maximumf deg one))) (ix2 p k) := fun k => by
    rw [mulf_apply]
    show _ = Ideal.div (agg (ix2 p k)) _
    rw [Cert.Lib.Keepdims.broadcastInDim_a1_ab_apply, Cert.Lib.Keepdims.broadcastInDim_a_a1_apply,
      Cert.Lib.Keepdims.broadcastInDim_a1_ab_apply, Cert.Lib.Keepdims.broadcastInDim_a_a1_apply]
    show agg (ix2 p k) * Ideal.div (one (ix1 p)) (max (deg (ix1 p)) (one (ix1 p))) = Ideal.div (agg (ix2 p k)) (max (deg (ix1 p)) (one (ix1 p)))
    rw [hone]
    exact mul_div_one_eq_div _ _ (le_max_right _ _)
  rw [Finset.sum_congr rfl fun k _ => congrArg (· * wl (ix2 k q)) (hsum k)]
  exact add_right_comm _ _ _

end Cert.Sage

end
-- ==== Proof.KDefs.lean ====
/-
  The kernel program's layers as functions of whole arrays.

  From the edge list the program takes the source and destination node of each edge, counts each node's incoming edges
  (its degree) and keeps the reciprocal of max(degree, 1). A layer then gathers the source rows of x, adds them into
  the destination nodes' rows (the neighbour sums), scales row p by the reciprocal degree of node p, and applies the
  linear stage: (scaled sums) · Wl + x · Wr + bias.
-/
import proofs.«167564_j6425271074972_1_alg».proof.KernelIdeal
import proofs.«167564_j6425271074972_1_alg».proof.Proof.Gen.KernelIdeal
import proofs.«167564_j6425271074972_1_alg».proof.Proof.Layer

noncomputable section

namespace Cert.KernelIdeal.KValue

open Cert.KernelIdeal Cert.KernelIdeal.Facts₀ Cert.KernelIdeal.Facts Idealize.ShloMosaic

/-- The source nodes as a column of start indices, a negative index counted from the end. -/
def srcCol (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 100000#32))) src)

/-- The destination nodes as a column of scatter indices. -/
def dstCol (dst : IVec S640000 32) : IVec S640000x1 32 :=
  broadcastInDim S640000x1 ![0] bcast_S640000_S640000x1_0 dst

/-- The vector of ones over the nodes. -/
def ones : FVec Ideal S100000 .f32 := broadcastInDim S100000 ![] bcast_S_S100000 (constant S_ .f32 0x3F800000#32)

/-- The degree of each node: one added per incoming edge. -/
def degree (dst : IVec S640000 32) : FVec Ideal S100000 .f32 :=
  Host.scatterAdd scatter_S100000_S640000x1_S640000_n_0_0_1
    (broadcastInDim S100000 ![] bcast_S_S100000 (constant S_ .f32 0x00000000#32)) (dstCol dst)
    (broadcastInDim S640000 ![] bcast_S_S640000 (constant S_ .f32 0x3F800000#32))

/-- The reciprocal of max(degree, 1), computed once for all layers. -/
def degInv (dst : IVec S640000 32) : FVec Ideal S100000 .f32 := Host.divf ones (maximumf (degree dst) ones)

/-- Row 0 of the edge list: the source node of each edge. -/
def srcOf (e : IVec S2x640000 32) : IVec S640000 32 :=
  shapeCast S640000 (extractStridedSlice S1x640000 ![0, 0] e slices_S2x640000_S1x640000_0_0) shapeCasts_S1x640000_S640000

/-- Row 1 of the edge list: the destination node of each edge. -/
def dstOf (e : IVec S2x640000 32) : IVec S640000 32 :=
  shapeCast S640000 (extractStridedSlice S1x640000 ![1, 0] e slices_S2x640000_S1x640000_1_0) shapeCasts_S1x640000_S640000

/-- The neighbour sums of layer 0: each edge's source row of x, gathered, added into its destination node's row. -/
def agg0 (x : FVec Ideal S100000x128 .f32) (src dst : IVec S640000 32) : FVec Ideal S100000x128 .f32 :=
  Host.scatterAdd scatter_S100000x128_S640000x1_S640000x128_1_0_0_1
    (broadcastInDim S100000x128 ![] bcast_S_S100000x128 (constant S_ .f32 0x00000000#32)) (dstCol dst)
    (Host.gather gather_S100000x128_S640000x1_S640000x128_1_0_n_n_0_1_1128 x (srcCol src))

/-- The neighbour sums of layer 0 with row p scaled by the reciprocal degree of node p. -/
def scaled0 (x : FVec Ideal S100000x128 .f32) (src dst : IVec S640000 32) (dinv : FVec Ideal S100000 .f32) :
    FVec Ideal S100000x128 .f32 :=
  mulf (agg0 x src dst) (broadcastInDim S100000x128 ![0, 1] bcast_S100000x1_S100000x128_0_1
    (broadcastInDim S100000x1 ![0] bcast_S100000_S100000x1_0 dinv))

/-- The bias of layer 0 laid out as a row. -/
def biasRow0 (bl : FVec Ideal S85 .f32) : FVec Ideal S1x85 .f32 := shapeCast S1x85 bl shapeCasts_S85_S1x85

/-- Layer 0 as the kernel program computes it: the linear stage of the scaled neighbour sums, of x, the two weight
    matrices, and the bias row. -/
def layer0 (x : FVec Ideal S100000x128 .f32) (src dst : IVec S640000 32) (dinv : FVec Ideal S100000 .f32)
    (wl wr : FVec Ideal S128x85 .f32) (bl : FVec Ideal S85 .f32) : FVec Ideal S100000x85 .f32 :=
  Cert.Sage.lin (scaled0 x src dst dinv) x wl wr (biasRow0 bl)

/-- The neighbour sums of layer 1: each edge's source row of x, gathered, added into its destination node's row. -/
def agg1 (x : FVec Ideal S100000x85 .f32) (src dst : IVec S640000 32) : FVec Ideal S100000x85 .f32 :=
  Host.scatterAdd scatter_S100000x85_S640000x1_S640000x85_1_0_0_1
    (broadcastInDim S100000x85 ![] bcast_S_S100000x85 (constant S_ .f32 0x00000000#32)) (dstCol dst)
    (Host.gather gather_S100000x85_S640000x1_S640000x85_1_0_n_n_0_1_185 x (srcCol src))

/-- The neighbour sums of layer 1 with row p scaled by the reciprocal degree of node p. -/
def scaled1 (x : FVec Ideal S100000x85 .f32) (src dst : IVec S640000 32) (dinv : FVec Ideal S100000 .f32) :
    FVec Ideal S100000x85 .f32 :=
  mulf (agg1 x src dst) (broadcastInDim S100000x85 ![0, 1] bcast_S100000x1_S100000x85_0_1
    (broadcastInDim S100000x1 ![0] bcast_S100000_S100000x1_0 dinv))

/-- The bias of layer 1 laid out as a row. -/
def biasRow1 (bl : FVec Ideal S56 .f32) : FVec Ideal S1x56 .f32 := shapeCast S1x56 bl shapeCasts_S56_S1x56

/-- Layer 1 as the kernel program computes it: the linear stage of the scaled neighbour sums, of x, the two weight
    matrices, and the bias row. -/
def layer1 (x : FVec Ideal S100000x85 .f32) (src dst : IVec S640000 32) (dinv : FVec Ideal S100000 .f32)
    (wl wr : FVec Ideal S85x56 .f32) (bl : FVec Ideal S56 .f32) : FVec Ideal S100000x56 .f32 :=
  Cert.Sage.lin (scaled1 x src dst dinv) x wl wr (biasRow1 bl)

/-- The neighbour sums of layer 2: each edge's source row of x, gathered, added into its destination node's row. -/
def agg2 (x : FVec Ideal S100000x56 .f32) (src dst : IVec S640000 32) : FVec Ideal S100000x56 .f32 :=
  Host.scatterAdd scatter_S100000x56_S640000x1_S640000x56_1_0_0_1
    (broadcastInDim S100000x56 ![] bcast_S_S100000x56 (constant S_ .f32 0x00000000#32)) (dstCol dst)
    (Host.gather gather_S100000x56_S640000x1_S640000x56_1_0_n_n_0_1_156 x (srcCol src))

/-- The neighbour sums of layer 2 with row p scaled by the reciprocal degree of node p. -/
def scaled2 (x : FVec Ideal S100000x56 .f32) (src dst : IVec S640000 32) (dinv : FVec Ideal S100000 .f32) :
    FVec Ideal S100000x56 .f32 :=
  mulf (agg2 x src dst) (broadcastInDim S100000x56 ![0, 1] bcast_S100000x1_S100000x56_0_1
    (broadcastInDim S100000x1 ![0] bcast_S100000_S100000x1_0 dinv))

/-- The bias of layer 2 laid out as a row. -/
def biasRow2 (bl : FVec Ideal S28 .f32) : FVec Ideal S1x28 .f32 := shapeCast S1x28 bl shapeCasts_S28_S1x28

/-- Layer 2 as the kernel program computes it: the linear stage of the scaled neighbour sums, of x, the two weight
    matrices, and the bias row. -/
def layer2 (x : FVec Ideal S100000x56 .f32) (src dst : IVec S640000 32) (dinv : FVec Ideal S100000 .f32)
    (wl wr : FVec Ideal S56x28 .f32) (bl : FVec Ideal S28 .f32) : FVec Ideal S100000x28 .f32 :=
  Cert.Sage.lin (scaled2 x src dst dinv) x wl wr (biasRow2 bl)

/-- The neighbour sums of layer 3: each edge's source row of x, gathered, added into its destination node's row. -/
def agg3 (x : FVec Ideal S100000x28 .f32) (src dst : IVec S640000 32) : FVec Ideal S100000x28 .f32 :=
  Host.scatterAdd scatter_S100000x28_S640000x1_S640000x28_1_0_0_1
    (broadcastInDim S100000x28 ![] bcast_S_S100000x28 (constant S_ .f32 0x00000000#32)) (dstCol dst)
    (Host.gather gather_S100000x28_S640000x1_S640000x28_1_0_n_n_0_1_128 x (srcCol src))

/-- The neighbour sums of layer 3 with row p scaled by the reciprocal degree of node p. -/
def scaled3 (x : FVec Ideal S100000x28 .f32) (src dst : IVec S640000 32) (dinv : FVec Ideal S100000 .f32) :
    FVec Ideal S100000x28 .f32 :=
  mulf (agg3 x src dst) (broadcastInDim S100000x28 ![0, 1] bcast_S100000x1_S100000x28_0_1
    (broadcastInDim S100000x1 ![0] bcast_S100000_S100000x1_0 dinv))

/-- The bias of layer 3 laid out as a row. -/
def biasRow3 (bl : FVec Ideal S1 .f32) : FVec Ideal S1x1 .f32 := shapeCast S1x1 bl shapeCasts_S1_S1x1

/-- Layer 3 as the kernel program computes it: the linear stage of the scaled neighbour sums, of x, the two weight
    matrices, and the bias row. -/
def layer3 (x : FVec Ideal S100000x28 .f32) (src dst : IVec S640000 32) (dinv : FVec Ideal S100000 .f32)
    (wl wr : FVec Ideal S28x1 .f32) (bl : FVec Ideal S1 .f32) : FVec Ideal S100000x1 .f32 :=
  Cert.Sage.lin (scaled3 x src dst dinv) x wl wr (biasRow3 bl)

end Cert.KernelIdeal.KValue

end
-- ==== Proof.KHost.lean ====
/-
  The host stretches of the kernel program, read.

  Before each region a stretch of host operations prepares the region's arrays: the neighbour sums of the current
  features scaled by the reciprocal degree, and the bias as a row. The first stretch also takes the edge list apart
  and computes the reciprocal degree; later stretches reuse those, which no later operation and no region writes, so
  at any later boundary they still hold what the first stretch left. The weights and biases are arguments, never written.
-/
import proofs.«167564_j6425271074972_1_alg».proof.Proof.Gen.KernelIdeal.Frame
import proofs.«167564_j6425271074972_1_alg».proof.Proof.KDefs

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first stretch leaves for every layer -/

theorem src_base (c : Dev nD) : W1 m ρ c (Proc.devRef .tc main_v1) = srcOf (m ((c : Thread nD τ).loc main_arg1)) := by
  show StableHlo.after hostOps0 (W0 m ρ c) (Proc.devRef .tc main_v1) = _
  after_results
  rfl
theorem dst_base (c : Dev nD) : W1 m ρ c (Proc.devRef .tc main_v3) = dstOf (m ((c : Thread nD τ).loc main_arg1)) := by
  show StableHlo.after hostOps0 (W0 m ρ c) (Proc.devRef .tc main_v3) = _
  after_results
  rfl
theorem dinv_base (c : Dev nD) : W1 m ρ c (Proc.devRef .tc main_v11) = degInv (dstOf (m ((c : Thread nD τ).loc main_arg1))) := by
  show StableHlo.after hostOps0 (W0 m ρ c) (Proc.devRef .tc main_v11) = _
  after_results
  rfl

/-! ## Layer 0: the arrays region 0 is entered with -/

set_option maxHeartbeats 8000000 in
/-- The scaled neighbour sums region 0 reads through window 0. -/
theorem mean0 (c : Dev nD) : V1 m ρ c main_v24 = scaled0 (m ((c : Thread nD τ).loc main_arg0)) (srcOf (m ((c : Thread nD τ).loc main_arg1))) (dstOf (m ((c : Thread nD τ).loc main_arg1))) (degInv (dstOf (m ((c : Thread nD τ).loc main_arg1)))) := by
  show StableHlo.after hostOps0 (W0 m ρ c) (Proc.devRef .tc main_v24) = _
  after_results_simp <;> rfl

/-- The bias row region 0 reads through window 4. -/
theorem bias0 (c : Dev nD) : V1 m ρ c main_v25 = biasRow0 (m ((c : Thread nD τ).loc main_arg3)) := by
  show StableHlo.after hostOps0 (W0 m ρ c) (Proc.devRef .tc main_v25) = _
  after_results
  rfl

/-- The features, and the two weight matrices, as the stretch before region 0 leaves them: untouched. -/
theorem feat0 (c : Dev nD) : V1 m ρ c main_arg0 = m ((c : Thread nD τ).loc main_arg0) := by
  show StableHlo.after hostOps0 (W0 m ρ c) (Proc.devRef .tc main_arg0) = _
  after_results
theorem wl0 (c : Dev nD) : V1 m ρ c main_arg2 = m ((c : Thread nD τ).loc main_arg2) := by
  show StableHlo.after hostOps0 (W0 m ρ c) (Proc.devRef .tc main_arg2) = _
  after_results
theorem wr0 (c : Dev nD) : V1 m ρ c main_arg4 = m ((c : Thread nD τ).loc main_arg4) := by
  show StableHlo.after hostOps0 (W0 m ρ c) (Proc.devRef .tc main_arg4) = _
  after_results

/-! ## Layer 1: the arrays region 1 is entered with -/

theorem back1_main_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem back1_main_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem back1_main_v11 (c : Dev nD) : W2 m ρ c (Proc.devRef .tc main_v11) = W1 m ρ c (Proc.devRef .tc main_v11) :=
  calc W2 m ρ c (Proc.devRef .tc main_v11)
    _ = W1 m ρ c (Proc.devRef .tc main_v11) := W2_of_ne m ρ c main_v11 (by decide)

theorem back1_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by show StableHlo.after hostOps0 (W0 m ρ c) (Proc.devRef .tc main_arg5) = _; after_results
    _ = m ((c : Thread nD τ).loc main_arg5) := rfl

theorem back1_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by show StableHlo.after hostOps0 (W0 m ρ c) (Proc.devRef .tc main_arg7) = _; after_results
    _ = m ((c : Thread nD τ).loc main_arg7) := rfl

theorem back1_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by show StableHlo.after hostOps0 (W0 m ρ c) (Proc.devRef .tc main_arg6) = _; after_results
    _ = m ((c : Thread nD τ).loc main_arg6) := rfl

set_option maxHeartbeats 8000000 in
/-- The scaled neighbour sums region 1 reads through window 0. -/
theorem mean1 (c : Dev nD) : V3 m ρ c main_v39 = scaled1 (W2 m ρ c (Proc.devRef .tc main_v26)) (W2 m ρ c (Proc.devRef .tc main_v1)) (W2 m ρ c (Proc.devRef .tc main_v3)) (W2 m ρ c (Proc.devRef .tc main_v11)) := by
  show StableHlo.after hostOps1 (W2 m ρ c) (Proc.devRef .tc main_v39) = _
  after_results_simp <;> rfl

/-- The bias row region 1 reads through window 4. -/
theorem bias1 (c : Dev nD) : V3 m ρ c main_v40 = biasRow1 (W2 m ρ c (Proc.devRef .tc main_arg6)) := by
  show StableHlo.after hostOps1 (W2 m ρ c) (Proc.devRef .tc main_v40) = _
  after_results
  rfl

/-- The features, and the two weight matrices, as the stretch before region 1 leaves them: untouched. -/
theorem feat1 (c : Dev nD) : V3 m ρ c main_v26 = W2 m ρ c (Proc.devRef .tc main_v26) := by
  show StableHlo.after hostOps1 (W2 m ρ c) (Proc.devRef .tc main_v26) = _
  after_results
theorem wl1 (c : Dev nD) : V3 m ρ c main_arg5 = W2 m ρ c (Proc.devRef .tc main_arg5) := by
  show StableHlo.after hostOps1 (W2 m ρ c) (Proc.devRef .tc main_arg5) = _
  after_results
theorem wr1 (c : Dev nD) : V3 m ρ c main_arg7 = W2 m ρ c (Proc.devRef .tc main_arg7) := by
  show StableHlo.after hostOps1 (W2 m ρ c) (Proc.devRef .tc main_arg7) = _
  after_results

/-! ## Layer 2: the arrays region 2 is entered with -/

theorem back2_main_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by show StableHlo.after hostOps1 (W2 m ρ c) (Proc.devRef .tc main_v1) = _; after_results
    _ = W1 m ρ c (Proc.devRef .tc main_v1) := W2_of_ne m ρ c main_v1 (by decide)

theorem back2_main_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by show StableHlo.after hostOps1 (W2 m ρ c) (Proc.devRef .tc main_v3) = _; after_results
    _ = W1 m ρ c (Proc.devRef .tc main_v3) := W2_of_ne m ρ c main_v3 (by decide)

theorem back2_main_v11 (c : Dev nD) : W4 m ρ c (Proc.devRef .tc main_v11) = W1 m ρ c (Proc.devRef .tc main_v11) :=
  calc W4 m ρ c (Proc.devRef .tc main_v11)
    _ = W3 m ρ c (Proc.devRef .tc main_v11) := W4_of_ne m ρ c main_v11 (by decide)
    _ = W2 m ρ c (Proc.devRef .tc main_v11) := by show StableHlo.after hostOps1 (W2 m ρ c) (Proc.devRef .tc main_v11) = _; after_results
    _ = W1 m ρ c (Proc.devRef .tc main_v11) := W2_of_ne m ρ c main_v11 (by decide)

theorem back2_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by show StableHlo.after hostOps1 (W2 m ρ c) (Proc.devRef .tc main_arg8) = _; after_results
    _ = W1 m ρ c (Proc.devRef .tc main_arg8) := W2_of_ne m ρ c main_arg8 (by decide)
    _ = W0 m ρ c (Proc.devRef .tc main_arg8) := by show StableHlo.after hostOps0 (W0 m ρ c) (Proc.devRef .tc main_arg8) = _; after_results
    _ = m ((c : Thread nD τ).loc main_arg8) := rfl

theorem back2_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by show StableHlo.after hostOps1 (W2 m ρ c) (Proc.devRef .tc main_arg10) = _; after_results
    _ = W1 m ρ c (Proc.devRef .tc main_arg10) := W2_of_ne m ρ c main_arg10 (by decide)
    _ = W0 m ρ c (Proc.devRef .tc main_arg10) := by show StableHlo.after hostOps0 (W0 m ρ c) (Proc.devRef .tc main_arg10) = _; after_results
    _ = m ((c : Thread nD τ).loc main_arg10) := rfl

theorem back2_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by show StableHlo.after hostOps1 (W2 m ρ c) (Proc.devRef .tc main_arg9) = _; after_results
    _ = W1 m ρ c (Proc.devRef .tc main_arg9) := W2_of_ne m ρ c main_arg9 (by decide)
    _ = W0 m ρ c (Proc.devRef .tc main_arg9) := by show StableHlo.after hostOps0 (W0 m ρ c) (Proc.devRef .tc main_arg9) = _; after_results
    _ = m ((c : Thread nD τ).loc main_arg9) := rfl

set_option maxHeartbeats 8000000 in
/-- The scaled neighbour sums region 2 reads through window 0. -/
theorem mean2 (c : Dev nD) : V5 m ρ c main_v54 = scaled2 (W4 m ρ c (Proc.devRef .tc main_v41)) (W4 m ρ c (Proc.devRef .tc main_v1)) (W4 m ρ c (Proc.devRef .tc main_v3)) (W4 m ρ c (Proc.devRef .tc main_v11)) := by
  show StableHlo.after hostOps2 (W4 m ρ c) (Proc.devRef .tc main_v54) = _
  after_results_simp <;> rfl

/-- The bias row region 2 reads through window 4. -/
theorem bias2 (c : Dev nD) : V5 m ρ c main_v55 = biasRow2 (W4 m ρ c (Proc.devRef .tc main_arg9)) := by
  show StableHlo.after hostOps2 (W4 m ρ c) (Proc.devRef .tc main_v55) = _
  after_results
  rfl

/-- The features, and the two weight matrices, as the stretch before region 2 leaves them: untouched. -/
theorem feat2 (c : Dev nD) : V5 m ρ c main_v41 = W4 m ρ c (Proc.devRef .tc main_v41) := by
  show StableHlo.after hostOps2 (W4 m ρ c) (Proc.devRef .tc main_v41) = _
  after_results
theorem wl2 (c : Dev nD) : V5 m ρ c main_arg8 = W4 m ρ c (Proc.devRef .tc main_arg8) := by
  show StableHlo.after hostOps2 (W4 m ρ c) (Proc.devRef .tc main_arg8) = _
  after_results
theorem wr2 (c : Dev nD) : V5 m ρ c main_arg10 = W4 m ρ c (Proc.devRef .tc main_arg10) := by
  show StableHlo.after hostOps2 (W4 m ρ c) (Proc.devRef .tc main_arg10) = _
  after_results

/-! ## Layer 3: the arrays region 3 is entered with -/

theorem back3_main_v1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by show StableHlo.after hostOps2 (W4 m ρ c) (Proc.devRef .tc main_v1) = _; after_results
    _ = W3 m ρ c (Proc.devRef .tc main_v1) := W4_of_ne m ρ c main_v1 (by decide)
    _ = W2 m ρ c (Proc.devRef .tc main_v1) := by show StableHlo.after hostOps1 (W2 m ρ c) (Proc.devRef .tc main_v1) = _; after_results
    _ = W1 m ρ c (Proc.devRef .tc main_v1) := W2_of_ne m ρ c main_v1 (by decide)

theorem back3_main_v3 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by show StableHlo.after hostOps2 (W4 m ρ c) (Proc.devRef .tc main_v3) = _; after_results
    _ = W3 m ρ c (Proc.devRef .tc main_v3) := W4_of_ne m ρ c main_v3 (by decide)
    _ = W2 m ρ c (Proc.devRef .tc main_v3) := by show StableHlo.after hostOps1 (W2 m ρ c) (Proc.devRef .tc main_v3) = _; after_results
    _ = W1 m ρ c (Proc.devRef .tc main_v3) := W2_of_ne m ρ c main_v3 (by decide)

theorem back3_main_v11 (c : Dev nD) : W6 m ρ c (Proc.devRef .tc main_v11) = W1 m ρ c (Proc.devRef .tc main_v11) :=
  calc W6 m ρ c (Proc.devRef .tc main_v11)
    _ = W5 m ρ c (Proc.devRef .tc main_v11) := W6_of_ne m ρ c main_v11 (by decide)
    _ = W4 m ρ c (Proc.devRef .tc main_v11) := by show StableHlo.after hostOps2 (W4 m ρ c) (Proc.devRef .tc main_v11) = _; after_results
    _ = W3 m ρ c (Proc.devRef .tc main_v11) := W4_of_ne m ρ c main_v11 (by decide)
    _ = W2 m ρ c (Proc.devRef .tc main_v11) := by show StableHlo.after hostOps1 (W2 m ρ c) (Proc.devRef .tc main_v11) = _; after_results
    _ = W1 m ρ c (Proc.devRef .tc main_v11) := W2_of_ne m ρ c main_v11 (by decide)

theorem back3_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by show StableHlo.after hostOps2 (W4 m ρ c) (Proc.devRef .tc main_arg11) = _; after_results
    _ = W3 m ρ c (Proc.devRef .tc main_arg11) := W4_of_ne m ρ c main_arg11 (by decide)
    _ = W2 m ρ c (Proc.devRef .tc main_arg11) := by show StableHlo.after hostOps1 (W2 m ρ c) (Proc.devRef .tc main_arg11) = _; after_results
    _ = W1 m ρ c (Proc.devRef .tc main_arg11) := W2_of_ne m ρ c main_arg11 (by decide)
    _ = W0 m ρ c (Proc.devRef .tc main_arg11) := by show StableHlo.after hostOps0 (W0 m ρ c) (Proc.devRef .tc main_arg11) = _; after_results
    _ = m ((c : Thread nD τ).loc main_arg11) := rfl

theorem back3_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := by show StableHlo.after hostOps2 (W4 m ρ c) (Proc.devRef .tc main_arg13) = _; after_results
    _ = W3 m ρ c (Proc.devRef .tc main_arg13) := W4_of_ne m ρ c main_arg13 (by decide)
    _ = W2 m ρ c (Proc.devRef .tc main_arg13) := by show StableHlo.after hostOps1 (W2 m ρ c) (Proc.devRef .tc main_arg13) = _; after_results
    _ = W1 m ρ c (Proc.devRef .tc main_arg13) := W2_of_ne m ρ c main_arg13 (by decide)
    _ = W0 m ρ c (Proc.devRef .tc main_arg13) := by show StableHlo.after hostOps0 (W0 m ρ c) (Proc.devRef .tc main_arg13) = _; after_results
    _ = m ((c : Thread nD τ).loc main_arg13) := rfl

theorem back3_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := by show StableHlo.after hostOps2 (W4 m ρ c) (Proc.devRef .tc main_arg12) = _; after_results
    _ = W3 m ρ c (Proc.devRef .tc main_arg12) := W4_of_ne m ρ c main_arg12 (by decide)
    _ = W2 m ρ c (Proc.devRef .tc main_arg12) := by show StableHlo.after hostOps1 (W2 m ρ c) (Proc.devRef .tc main_arg12) = _; after_results
    _ = W1 m ρ c (Proc.devRef .tc main_arg12) := W2_of_ne m ρ c main_arg12 (by decide)
    _ = W0 m ρ c (Proc.devRef .tc main_arg12) := by show StableHlo.after hostOps0 (W0 m ρ c) (Proc.devRef .tc main_arg12) = _; after_results
    _ = m ((c : Thread nD τ).loc main_arg12) := rfl

set_option maxHeartbeats 8000000 in
/-- The scaled neighbour sums region 3 reads through window 0. -/
theorem mean3 (c : Dev nD) : V7 m ρ c main_v69 = scaled3 (W6 m ρ c (Proc.devRef .tc main_v56)) (W6 m ρ c (Proc.devRef .tc main_v1)) (W6 m ρ c (Proc.devRef .tc main_v3)) (W6 m ρ c (Proc.devRef .tc main_v11)) := by
  show StableHlo.after hostOps3 (W6 m ρ c) (Proc.devRef .tc main_v69) = _
  after_results_simp <;> rfl

/-- The bias row region 3 reads through window 4. -/
theorem bias3 (c : Dev nD) : V7 m ρ c main_v70 = biasRow3 (W6 m ρ c (Proc.devRef .tc main_arg12)) := by
  show StableHlo.after hostOps3 (W6 m ρ c) (Proc.devRef .tc main_v70) = _
  after_results
  rfl

/-- The features, and the two weight matrices, as the stretch before region 3 leaves them: untouched. -/
theorem feat3 (c : Dev nD) : V7 m ρ c main_v56 = W6 m ρ c (Proc.devRef .tc main_v56) := by
  show StableHlo.after hostOps3 (W6 m ρ c) (Proc.devRef .tc main_v56) = _
  after_results
theorem wl3 (c : Dev nD) : V7 m ρ c main_arg11 = W6 m ρ c (Proc.devRef .tc main_arg11) := by
  show StableHlo.after hostOps3 (W6 m ρ c) (Proc.devRef .tc main_arg11) = _
  after_results
theorem wr3 (c : Dev nD) : V7 m ρ c main_arg13 = W6 m ρ c (Proc.devRef .tc main_arg13) := by
  show StableHlo.after hostOps3 (W6 m ρ c) (Proc.devRef .tc main_arg13) = _
  after_results

end Cert.KernelIdeal.KValue

end
-- ==== Proof.Region0.lean ====
/-
  Region 0: the output array of the linear stage, tile by tile.

  The region's grid has 20 points; point t works on rows 5000·t … 5000·t + 4999. Its body forms, for the row tile,
  the product of the mean tile with the left weights plus the product of the feature tile with the right weights plus
  the bias row spread over the rows. Entry (p, q) of that tile is entry (5000·t + p, q) of the whole-array linear
  stage, because a row of a matrix product reads only the same row of its left operand. The 20 tiles cover all
  100000 rows, so after the region the output array is the whole-array linear stage of the region's five inputs.
-/
import proofs.«167564_j6425271074972_1_alg».proof.Proof.Gen.KernelIdeal.Frame
import proofs.«167564_j6425271074972_1_alg».proof.Proof.Layer
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-- Entry (p, q) of the body's result tile, from the five tiles it loads: the two products' sums over the contraction
    index, plus the bias row's entry q. -/
theorem payload_entry (x0 x1 : Vec Ideal S5000x128 .f32) (x2 x3 : Vec Ideal S128x85 .f32) (x4 : Vec Ideal S1x85 .f32)
    (p : Fin 5000) (q : Fin 85) :
    Gen.k0_pay1 x0 x1 x2 x3 x4 (ix2 p q) = Cert.Sage.linAt x0 x1 x2 x3 x4 p q := by
  unfold Gen.k0_pay1
  refine (addf_apply _ _ _).trans ?_
  unfold Cert.Sage.linAt
  refine congrArg₂ (· + ·) ?_ ?_
  · refine (addf_apply _ _ _).trans ?_
    refine congrArg₂ (· + ·) ?_ ?_
    · refine (Cert.LibPlainContract.matmul_plain_apply 5000 128 85 none _ _ p q).trans ?_
      refine Finset.sum_congr rfl fun k _ => ?_
      refine congrArg₂ (· * ·) ?_ rfl
      exact congrFun (shapeCast_self _ _) _
    · exact (Cert.LibPlainContract.matmul_plain_apply 5000 128 85 none _ _ p q)
  · refine (broadcastTo_1b_ab_apply _ _ p q).trans ?_
    refine (congrFun (shapeCast_self _ _) _).trans ?_
    exact congrFun (shapeCast_self _ _) _

/-- An entry of the linear stage is determined by the row of each left operand, the column of each weight matrix and
    the bias entry that it reads. -/
theorem linAt_congr {n n' din dout : Nat}
    (mean x : (⟨2, ![n, din]⟩ : Shape).Idx → EReal) (mean' x' : (⟨2, ![n', din]⟩ : Shape).Idx → EReal)
    (wl wr wl' wr' : (⟨2, ![din, dout]⟩ : Shape).Idx → EReal) (b b' : (⟨2, ![1, dout]⟩ : Shape).Idx → EReal)
    (p : Fin n) (p' : Fin n') (q : Fin dout)
    (hm : ∀ k : Fin din, mean (ix2 p k) = mean' (ix2 p' k)) (hx : ∀ k : Fin din, x (ix2 p k) = x' (ix2 p' k))
    (hl : wl = wl') (hr : wr = wr') (hb : b = b') :
    Cert.Sage.linAt mean x wl wr b p q = Cert.Sage.linAt mean' x' wl' wr' b' p' q := by
  subst hl hr hb
  unfold Cert.Sage.linAt
  refine congrArg₂ (· + ·) (congrArg₂ (· + ·) (Finset.sum_congr rfl fun k _ => ?_) (Finset.sum_congr rfl fun k _ => ?_)) rfl
  · rw [hm k]
  · rw [hx k]

theorem hz : (![0, 0] : Fin 2 → Nat) = fun _ => 0 := funext fun a => by fin_cases a <;> rfl

/-- The windows' index maps, decided over the 20 grid points: the two row-tiled inputs sit at the output's row tile
    and column tile 0, the weights and the bias row at block (0, 0), and the output's row tile is the point's number. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (0 : Fin 2) ≤ 19 ∧ win0_5.index t (1 : Fin 2) = 0 :=
  (by decide +kernel : ∀ t : Fin grid0.N, _)

variable (V : (c : Dev nD) → (b : Ref sig .tc) → Buf (Elt Ideal) ((c : Thread nD τ).loc b))

/-- What point t writes back is tile t of the whole-array linear stage of the region's inputs. -/
theorem flushed_eq (c : Dev nD) (t : Fin cfg0.N) :
    (Gen.dat0 (F := Ideal) V c).flushed 5 t
      = ((cfg0.win 5).blk t).view.read (Elt Ideal)
          (Cert.Sage.lin (n := 100000) (din := 128) (dout := 85) (V c main_v24) (V c main_arg0) (V c main_arg2) (V c main_arg4) (V c main_v25)) := by
  show (cfg0.win 5).cut (grid0.coords t) ((Gen.dat0 V c).after 5 t) = _
  rw [Gen.after0_5]
  unfold Gen.out0_5
  rw [View.canon_unit_zero hz]
  simp only [View.ld_unit_zero (S := S5000x128) hz, View.ld_unit_zero (S := S128x85) hz, View.ld_unit_zero (S := S1x85) hz]
  obtain ⟨e00, e01, e10, e11, e20, e21, e30, e31, e40, e41, e50, e5le, e51⟩ := idx_facts t
  funext j
  obtain ⟨p, q, rfl⟩ : ∃ (p : Fin 5000) (q : Fin 85), j = ix2 p q := ⟨j 0, j 1, eq_ix2 j⟩
  have hp : p.val < 5000 := p.isLt
  have hq : q.val < 85 := q.isLt
  show Gen.k0_pay1 (Gen.iblk0 V c 0 t) (Gen.iblk0 V c 1 t) (Gen.iblk0 V c 2 t) (Gen.iblk0 V c 3 t) (Gen.iblk0 V c 4 t) (ix2 p q) = _
  refine (payload_entry _ _ _ _ _ p q).trans ?_
  have hemb : ((cfg0.win 5).blk t).view.emb (ix2 p q)
      = (ix2 (⟨t.val * 5000 + p.val, by omega⟩ : Fin 100000) q : S100000x85.Idx) := by
    funext a; apply Fin.ext
    match a with
    | ⟨0, _⟩ => show win0_5.index t (0 : Fin 2) * 5000 + 1 * p.val = t.val * 5000 + p.val; omega
    | ⟨1, _⟩ => show win0_5.index t (1 : Fin 2) * 85 + 1 * q.val = q.val; omega
  show _ = Cert.Sage.lin _ _ _ _ _ (((cfg0.win 5).blk t).view.emb (ix2 p q))
  rw [hemb, Cert.Sage.lin_apply]
  refine linAt_congr _ _ _ _ _ _ _ _ _ _ p _ q (fun k => ?_) (fun k => ?_) ?_ ?_ ?_
  · show V c main_v24 (((cfg0.win 0).blk t).view.emb (ix2 p k)) = V c main_v24 (ix2 _ k)
    refine congrArg _ (funext fun a => Fin.ext ?_)
    have hk : k.val < 128 := k.isLt
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg0 (((cfg0.win 1).blk t).view.emb (ix2 p k)) = V c main_arg0 (ix2 _ k)
    refine congrArg _ (funext fun a => Fin.ext ?_)
    have hk : k.val < 128 := k.isLt
    match a with
    | ⟨0, _⟩ => show win0_1.index t (0 : Fin 2) * 5000 + 1 * p.val = t.val * 5000 + p.val; omega
    | ⟨1, _⟩ => show win0_1.index t (1 : Fin 2) * 128 + 1 * k.val = k.val; omega
  · funext y
    show V c main_arg2 (((cfg0.win 2).blk t).view.emb y) = V c main_arg2 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 85 + 1 * (y 1).val = (y 1).val; omega
  · funext y
    show V c main_arg4 (((cfg0.win 3).blk t).view.emb y) = V c main_arg4 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 85 + 1 * (y 1).val = (y 1).val; omega
  · funext y
    show V c main_v25 (((cfg0.win 4).blk t).view.emb y) = V c main_v25 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 85 + 1 * (y 1).val = (y 1).val; omega

/-- An index of the output array is in point t's tile iff each coordinate is in the tile's range on its axis. -/
theorem mem_blk (t : Fin cfg0.N) (i : S100000x85.Idx) :
    i ∈ ((cfg0.win 5).blk t).view.set ↔ ∀ a : Fin 2, win0_5.index t a * S5000x85.size a ≤ (i a).val ∧ (i a).val < win0_5.index t a * S5000x85.size a + S5000x85.size a := by
  show i ∈ ((View.whole main_v26).slice (win0_5.rect t)).set ↔ _
  rw [View.set_slice_whole, Rect.mem_set_unit]
  exact Iff.rfl

/-- Every index of the output array is in some point's tile: row r is in the tile of point r / 5000. -/
theorem cover (i : S100000x85.Idx) :
    ∃ t : Fin cfg0.N, (cfg0.win 5).flush t = true ∧ i ∈ ((cfg0.win 5).blk t).view.set := by
  have hi0 : (i 0).val < 100000 := (i 0).isLt
  have hi1 : (i 1).val < 85 := (i 1).isLt
  have hN : cfg0.N = 20 := Gen.N_0
  have ht : (i 0).val / 5000 < cfg0.N := by rw [hN]; omega
  obtain ⟨-, -, -, -, -, -, -, -, -, -, e50, -, e51⟩ := idx_facts ⟨(i 0).val / 5000, ht⟩
  refine ⟨⟨(i 0).val / 5000, ht⟩, Gen.flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 85 ≤ (i 1).val ∧ (i 1).val < win0_5.index ⟨(i 0).val / 5000, ht⟩ (1 : Fin 2) * 85 + 85
    rw [e51]
    omega

/-- After the region the output array is the whole-array linear stage of the region's five input arrays. -/
theorem final0 (c : Dev nD) :
    (Gen.dat0 (F := Ideal) V c).arrAt 5 cfg0.N
      = Cert.Sage.lin (n := 100000) (din := 128) (dout := 85) (V c (Pipeline.arrRef spec0 0)) (V c (Pipeline.arrRef spec0 1)) (V c (Pipeline.arrRef spec0 2)) (V c (Pipeline.arrRef spec0 3)) (V c (Pipeline.arrRef spec0 4)) :=
  (Gen.dat0 (F := Ideal) V c).arrAt_eq_of_cover 5 _ (fun t _ => flushed_eq V c t) cover

end Cert.KernelIdeal.Region0

end
-- ==== Proof.Region1.lean ====
/-
  Region 1: the output array of the linear stage, tile by tile.

  The region's grid has 20 points; point t works on rows 5000·t … 5000·t + 4999. Its body forms, for the row tile,
  the product of the mean tile with the left weights plus the product of the feature tile with the right weights plus
  the bias row spread over the rows. Entry (p, q) of that tile is entry (5000·t + p, q) of the whole-array linear
  stage, because a row of a matrix product reads only the same row of its left operand. The 20 tiles cover all
  100000 rows, so after the region the output array is the whole-array linear stage of the region's five inputs.
-/
import proofs.«167564_j6425271074972_1_alg».proof.Proof.Gen.KernelIdeal.Frame
import proofs.«167564_j6425271074972_1_alg».proof.Proof.Layer
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- Entry (p, q) of the body's result tile, from the five tiles it loads: the two products' sums over the contraction
    index, plus the bias row's entry q. -/
theorem payload_entry (x0 x1 : Vec Ideal S5000x85 .f32) (x2 x3 : Vec Ideal S85x56 .f32) (x4 : Vec Ideal S1x56 .f32)
    (p : Fin 5000) (q : Fin 56) :
    Gen.k1_pay1 x0 x1 x2 x3 x4 (ix2 p q) = Cert.Sage.linAt x0 x1 x2 x3 x4 p q := by
  unfold Gen.k1_pay1
  refine (addf_apply _ _ _).trans ?_
  unfold Cert.Sage.linAt
  refine congrArg₂ (· + ·) ?_ ?_
  · refine (addf_apply _ _ _).trans ?_
    refine congrArg₂ (· + ·) ?_ ?_
    · refine (Cert.LibPlainContract.matmul_plain_apply 5000 85 56 none _ _ p q).trans ?_
      refine Finset.sum_congr rfl fun k _ => ?_
      refine congrArg₂ (· * ·) ?_ rfl
      exact congrFun (shapeCast_self _ _) _
    · refine (Cert.LibPlainContract.matmul_plain_apply 5000 85 56 none _ _ p q).trans ?_
      refine Finset.sum_congr rfl fun k _ => ?_
      refine congrArg₂ (· * ·) ?_ rfl
      exact congrFun (shapeCast_self _ _) _
  · refine (broadcastTo_1b_ab_apply _ _ p q).trans ?_
    refine (congrFun (shapeCast_self _ _) _).trans ?_
    exact congrFun (shapeCast_self _ _) _

/-- An entry of the linear stage is determined by the row of each left operand, the column of each weight matrix and
    the bias entry that it reads. -/
theorem linAt_congr {n n' din dout : Nat}
    (mean x : (⟨2, ![n, din]⟩ : Shape).Idx → EReal) (mean' x' : (⟨2, ![n', din]⟩ : Shape).Idx → EReal)
    (wl wr wl' wr' : (⟨2, ![din, dout]⟩ : Shape).Idx → EReal) (b b' : (⟨2, ![1, dout]⟩ : Shape).Idx → EReal)
    (p : Fin n) (p' : Fin n') (q : Fin dout)
    (hm : ∀ k : Fin din, mean (ix2 p k) = mean' (ix2 p' k)) (hx : ∀ k : Fin din, x (ix2 p k) = x' (ix2 p' k))
    (hl : wl = wl') (hr : wr = wr') (hb : b = b') :
    Cert.Sage.linAt mean x wl wr b p q = Cert.Sage.linAt mean' x' wl' wr' b' p' q := by
  subst hl hr hb
  unfold Cert.Sage.linAt
  refine congrArg₂ (· + ·) (congrArg₂ (· + ·) (Finset.sum_congr rfl fun k _ => ?_) (Finset.sum_congr rfl fun k _ => ?_)) rfl
  · rw [hm k]
  · rw [hx k]

theorem hz : (![0, 0] : Fin 2 → Nat) = fun _ => 0 := funext fun a => by fin_cases a <;> rfl

/-- The windows' index maps, decided over the 20 grid points: the two row-tiled inputs sit at the output's row tile
    and column tile 0, the weights and the bias row at block (0, 0), and the output's row tile is the point's number. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (0 : Fin 2) ≤ 19 ∧ win1_5.index t (1 : Fin 2) = 0 :=
  (by decide +kernel : ∀ t : Fin grid1.N, _)

variable (V : (c : Dev nD) → (b : Ref sig .tc) → Buf (Elt Ideal) ((c : Thread nD τ).loc b))

/-- What point t writes back is tile t of the whole-array linear stage of the region's inputs. -/
theorem flushed_eq (c : Dev nD) (t : Fin cfg1.N) :
    (Gen.dat1 (F := Ideal) V c).flushed 5 t
      = ((cfg1.win 5).blk t).view.read (Elt Ideal)
          (Cert.Sage.lin (n := 100000) (din := 85) (dout := 56) (V c main_v39) (V c main_v26) (V c main_arg5) (V c main_arg7) (V c main_v40)) := by
  show (cfg1.win 5).cut (grid1.coords t) ((Gen.dat1 V c).after 5 t) = _
  rw [Gen.after1_5]
  unfold Gen.out1_5
  rw [View.canon_unit_zero hz]
  simp only [View.ld_unit_zero (S := S5000x85) hz, View.ld_unit_zero (S := S85x56) hz, View.ld_unit_zero (S := S1x56) hz]
  obtain ⟨e00, e01, e10, e11, e20, e21, e30, e31, e40, e41, e50, e5le, e51⟩ := idx_facts t
  funext j
  obtain ⟨p, q, rfl⟩ : ∃ (p : Fin 5000) (q : Fin 56), j = ix2 p q := ⟨j 0, j 1, eq_ix2 j⟩
  have hp : p.val < 5000 := p.isLt
  have hq : q.val < 56 := q.isLt
  show Gen.k1_pay1 (Gen.iblk1 V c 0 t) (Gen.iblk1 V c 1 t) (Gen.iblk1 V c 2 t) (Gen.iblk1 V c 3 t) (Gen.iblk1 V c 4 t) (ix2 p q) = _
  refine (payload_entry _ _ _ _ _ p q).trans ?_
  have hemb : ((cfg1.win 5).blk t).view.emb (ix2 p q)
      = (ix2 (⟨t.val * 5000 + p.val, by omega⟩ : Fin 100000) q : S100000x56.Idx) := by
    funext a; apply Fin.ext
    match a with
    | ⟨0, _⟩ => show win1_5.index t (0 : Fin 2) * 5000 + 1 * p.val = t.val * 5000 + p.val; omega
    | ⟨1, _⟩ => show win1_5.index t (1 : Fin 2) * 56 + 1 * q.val = q.val; omega
  show _ = Cert.Sage.lin _ _ _ _ _ (((cfg1.win 5).blk t).view.emb (ix2 p q))
  rw [hemb, Cert.Sage.lin_apply]
  refine linAt_congr _ _ _ _ _ _ _ _ _ _ p _ q (fun k => ?_) (fun k => ?_) ?_ ?_ ?_
  · show V c main_v39 (((cfg1.win 0).blk t).view.emb (ix2 p k)) = V c main_v39 (ix2 _ k)
    refine congrArg _ (funext fun a => Fin.ext ?_)
    have hk : k.val < 85 := k.isLt
    match a with
    | ⟨0, _⟩ => show win1_0.index t (0 : Fin 2) * 5000 + 1 * p.val = t.val * 5000 + p.val; omega
    | ⟨1, _⟩ => show win1_0.index t (1 : Fin 2) * 85 + 1 * k.val = k.val; omega
  · show V c main_v26 (((cfg1.win 1).blk t).view.emb (ix2 p k)) = V c main_v26 (ix2 _ k)
    refine congrArg _ (funext fun a => Fin.ext ?_)
    have hk : k.val < 85 := k.isLt
    match a with
    | ⟨0, _⟩ => show win1_1.index t (0 : Fin 2) * 5000 + 1 * p.val = t.val * 5000 + p.val; omega
    | ⟨1, _⟩ => show win1_1.index t (1 : Fin 2) * 85 + 1 * k.val = k.val; omega
  · funext y
    show V c main_arg5 (((cfg1.win 2).blk t).view.emb y) = V c main_arg5 y
    refine congrArg _ (funext fun a => Fin.ext ?_)
    match a with
    | ⟨0, _⟩ => show win1_2.index t (0 : Fin 2) * 85 + 1 * (y 0).val = (y 0).val; omega
    | ⟨1, _⟩ => show win1_2.index t (1 : Fin 2) * 56 + 1 * (y 1).val = (y 1).val; omega
  · funext y
    show V c main_arg7 (((cfg1.win 3).blk t).view.emb y) = V c main_arg7 y
    refine congrArg _ (funext fun a => Fin.ext ?_)
    match a with
    | ⟨0, _⟩ => show win1_3.index t (0 : Fin 2) * 85 + 1 * (y 0).val = (y 0).val; omega
    | ⟨1, _⟩ => show win1_3.index t (1 : Fin 2) * 56 + 1 * (y 1).val = (y 1).val; omega
  · funext y
    show V c main_v40 (((cfg1.win 4).blk t).view.emb y) = V c main_v40 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 56 + 1 * (y 1).val = (y 1).val; omega

/-- An index of the output array is in point t's tile iff each coordinate is in the tile's range on its axis. -/
theorem mem_blk (t : Fin cfg1.N) (i : S100000x56.Idx) :
    i ∈ ((cfg1.win 5).blk t).view.set ↔ ∀ a : Fin 2, win1_5.index t a * S5000x56.size a ≤ (i a).val ∧ (i a).val < win1_5.index t a * S5000x56.size a + S5000x56.size a := by
  show i ∈ ((View.whole main_v41).slice (win1_5.rect t)).set ↔ _
  rw [View.set_slice_whole, Rect.mem_set_unit]
  exact Iff.rfl

/-- Every index of the output array is in some point's tile: row r is in the tile of point r / 5000. -/
theorem cover (i : S100000x56.Idx) :
    ∃ t : Fin cfg1.N, (cfg1.win 5).flush t = true ∧ i ∈ ((cfg1.win 5).blk t).view.set := by
  have hi0 : (i 0).val < 100000 := (i 0).isLt
  have hi1 : (i 1).val < 56 := (i 1).isLt
  have hN : cfg1.N = 20 := Gen.N_1
  have ht : (i 0).val / 5000 < cfg1.N := by rw [hN]; omega
  obtain ⟨-, -, -, -, -, -, -, -, -, -, e50, -, e51⟩ := idx_facts ⟨(i 0).val / 5000, ht⟩
  refine ⟨⟨(i 0).val / 5000, ht⟩, Gen.flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 56 ≤ (i 1).val ∧ (i 1).val < win1_5.index ⟨(i 0).val / 5000, ht⟩ (1 : Fin 2) * 56 + 56
    rw [e51]
    omega

/-- After the region the output array is the whole-array linear stage of the region's five input arrays. -/
theorem final1 (c : Dev nD) :
    (Gen.dat1 (F := Ideal) V c).arrAt 5 cfg1.N
      = Cert.Sage.lin (n := 100000) (din := 85) (dout := 56) (V c (Pipeline.arrRef spec1 0)) (V c (Pipeline.arrRef spec1 1)) (V c (Pipeline.arrRef spec1 2)) (V c (Pipeline.arrRef spec1 3)) (V c (Pipeline.arrRef spec1 4)) :=
  (Gen.dat1 (F := Ideal) V c).arrAt_eq_of_cover 5 _ (fun t _ => flushed_eq V c t) cover

end Cert.KernelIdeal.Region1

end
-- ==== Proof.Region2.lean ====
/-
  Region 2: the output array of the linear stage, tile by tile.

  The region's grid has 20 points; point t works on rows 5000·t … 5000·t + 4999. Its body forms, for the row tile,
  the product of the mean tile with the left weights plus the product of the feature tile with the right weights plus
  the bias row spread over the rows. Entry (p, q) of that tile is entry (5000·t + p, q) of the whole-array linear
  stage, because a row of a matrix product reads only the same row of its left operand. The 20 tiles cover all
  100000 rows, so after the region the output array is the whole-array linear stage of the region's five inputs.
-/
import proofs.«167564_j6425271074972_1_alg».proof.Proof.Gen.KernelIdeal.Frame
import proofs.«167564_j6425271074972_1_alg».proof.Proof.Layer
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-- Entry (p, q) of the body's result tile, from the five tiles it loads: the two products' sums over the contraction
    index, plus the bias row's entry q. -/
theorem payload_entry (x0 x1 : Vec Ideal S5000x56 .f32) (x2 x3 : Vec Ideal S56x28 .f32) (x4 : Vec Ideal S1x28 .f32)
    (p : Fin 5000) (q : Fin 28) :
    Gen.k2_pay1 x0 x1 x2 x3 x4 (ix2 p q) = Cert.Sage.linAt x0 x1 x2 x3 x4 p q := by
  unfold Gen.k2_pay1
  refine (addf_apply _ _ _).trans ?_
  unfold Cert.Sage.linAt
  refine congrArg₂ (· + ·) ?_ ?_
  · refine (addf_apply _ _ _).trans ?_
    refine congrArg₂ (· + ·) ?_ ?_
    · refine (Cert.LibPlainContract.matmul_plain_apply 5000 56 28 none _ _ p q).trans ?_
      refine Finset.sum_congr rfl fun k _ => ?_
      refine congrArg₂ (· * ·) ?_ rfl
      exact congrFun (shapeCast_self _ _) _
    · refine (Cert.LibPlainContract.matmul_plain_apply 5000 56 28 none _ _ p q).trans ?_
      refine Finset.sum_congr rfl fun k _ => ?_
      refine congrArg₂ (· * ·) ?_ rfl
      exact congrFun (shapeCast_self _ _) _
  · refine (broadcastTo_1b_ab_apply _ _ p q).trans ?_
    refine (congrFun (shapeCast_self _ _) _).trans ?_
    exact congrFun (shapeCast_self _ _) _

/-- An entry of the linear stage is determined by the row of each left operand, the column of each weight matrix and
    the bias entry that it reads. -/
theorem linAt_congr {n n' din dout : Nat}
    (mean x : (⟨2, ![n, din]⟩ : Shape).Idx → EReal) (mean' x' : (⟨2, ![n', din]⟩ : Shape).Idx → EReal)
    (wl wr wl' wr' : (⟨2, ![din, dout]⟩ : Shape).Idx → EReal) (b b' : (⟨2, ![1, dout]⟩ : Shape).Idx → EReal)
    (p : Fin n) (p' : Fin n') (q : Fin dout)
    (hm : ∀ k : Fin din, mean (ix2 p k) = mean' (ix2 p' k)) (hx : ∀ k : Fin din, x (ix2 p k) = x' (ix2 p' k))
    (hl : wl = wl') (hr : wr = wr') (hb : b = b') :
    Cert.Sage.linAt mean x wl wr b p q = Cert.Sage.linAt mean' x' wl' wr' b' p' q := by
  subst hl hr hb
  unfold Cert.Sage.linAt
  refine congrArg₂ (· + ·) (congrArg₂ (· + ·) (Finset.sum_congr rfl fun k _ => ?_) (Finset.sum_congr rfl fun k _ => ?_)) rfl
  · rw [hm k]
  · rw [hx k]

theorem hz : (![0, 0] : Fin 2 → Nat) = fun _ => 0 := funext fun a => by fin_cases a <;> rfl

/-- The windows' index maps, decided over the 20 grid points: the two row-tiled inputs sit at the output's row tile
    and column tile 0, the weights and the bias row at block (0, 0), and the output's row tile is the point's number. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (0 : Fin 2) ≤ 19 ∧ win2_5.index t (1 : Fin 2) = 0 :=
  (by decide +kernel : ∀ t : Fin grid2.N, _)

variable (V : (c : Dev nD) → (b : Ref sig .tc) → Buf (Elt Ideal) ((c : Thread nD τ).loc b))

/-- What point t writes back is tile t of the whole-array linear stage of the region's inputs. -/
theorem flushed_eq (c : Dev nD) (t : Fin cfg2.N) :
    (Gen.dat2 (F := Ideal) V c).flushed 5 t
      = ((cfg2.win 5).blk t).view.read (Elt Ideal)
          (Cert.Sage.lin (n := 100000) (din := 56) (dout := 28) (V c main_v54) (V c main_v41) (V c main_arg8) (V c main_arg10) (V c main_v55)) := by
  show (cfg2.win 5).cut (grid2.coords t) ((Gen.dat2 V c).after 5 t) = _
  rw [Gen.after2_5]
  unfold Gen.out2_5
  rw [View.canon_unit_zero hz]
  simp only [View.ld_unit_zero (S := S5000x56) hz, View.ld_unit_zero (S := S56x28) hz, View.ld_unit_zero (S := S1x28) hz]
  obtain ⟨e00, e01, e10, e11, e20, e21, e30, e31, e40, e41, e50, e5le, e51⟩ := idx_facts t
  funext j
  obtain ⟨p, q, rfl⟩ : ∃ (p : Fin 5000) (q : Fin 28), j = ix2 p q := ⟨j 0, j 1, eq_ix2 j⟩
  have hp : p.val < 5000 := p.isLt
  have hq : q.val < 28 := q.isLt
  show Gen.k2_pay1 (Gen.iblk2 V c 0 t) (Gen.iblk2 V c 1 t) (Gen.iblk2 V c 2 t) (Gen.iblk2 V c 3 t) (Gen.iblk2 V c 4 t) (ix2 p q) = _
  refine (payload_entry _ _ _ _ _ p q).trans ?_
  have hemb : ((cfg2.win 5).blk t).view.emb (ix2 p q)
      = (ix2 (⟨t.val * 5000 + p.val, by omega⟩ : Fin 100000) q : S100000x28.Idx) := by
    funext a; apply Fin.ext
    match a with
    | ⟨0, _⟩ => show win2_5.index t (0 : Fin 2) * 5000 + 1 * p.val = t.val * 5000 + p.val; omega
    | ⟨1, _⟩ => show win2_5.index t (1 : Fin 2) * 28 + 1 * q.val = q.val; omega
  show _ = Cert.Sage.lin _ _ _ _ _ (((cfg2.win 5).blk t).view.emb (ix2 p q))
  rw [hemb, Cert.Sage.lin_apply]
  refine linAt_congr _ _ _ _ _ _ _ _ _ _ p _ q (fun k => ?_) (fun k => ?_) ?_ ?_ ?_
  · show V c main_v54 (((cfg2.win 0).blk t).view.emb (ix2 p k)) = V c main_v54 (ix2 _ k)
    refine congrArg _ (funext fun a => Fin.ext ?_)
    have hk : k.val < 56 := k.isLt
    match a with
    | ⟨0, _⟩ => show win2_0.index t (0 : Fin 2) * 5000 + 1 * p.val = t.val * 5000 + p.val; omega
    | ⟨1, _⟩ => show win2_0.index t (1 : Fin 2) * 56 + 1 * k.val = k.val; omega
  · show V c main_v41 (((cfg2.win 1).blk t).view.emb (ix2 p k)) = V c main_v41 (ix2 _ k)
    refine congrArg _ (funext fun a => Fin.ext ?_)
    have hk : k.val < 56 := k.isLt
    match a with
    | ⟨0, _⟩ => show win2_1.index t (0 : Fin 2) * 5000 + 1 * p.val = t.val * 5000 + p.val; omega
    | ⟨1, _⟩ => show win2_1.index t (1 : Fin 2) * 56 + 1 * k.val = k.val; omega
  · funext y
    show V c main_arg8 (((cfg2.win 2).blk t).view.emb y) = V c main_arg8 y
    refine congrArg _ (funext fun a => Fin.ext ?_)
    match a with
    | ⟨0, _⟩ => show win2_2.index t (0 : Fin 2) * 56 + 1 * (y 0).val = (y 0).val; omega
    | ⟨1, _⟩ => show win2_2.index t (1 : Fin 2) * 28 + 1 * (y 1).val = (y 1).val; omega
  · funext y
    show V c main_arg10 (((cfg2.win 3).blk t).view.emb y) = V c main_arg10 y
    refine congrArg _ (funext fun a => Fin.ext ?_)
    match a with
    | ⟨0, _⟩ => show win2_3.index t (0 : Fin 2) * 56 + 1 * (y 0).val = (y 0).val; omega
    | ⟨1, _⟩ => show win2_3.index t (1 : Fin 2) * 28 + 1 * (y 1).val = (y 1).val; omega
  · funext y
    show V c main_v55 (((cfg2.win 4).blk t).view.emb y) = V c main_v55 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 28 + 1 * (y 1).val = (y 1).val; omega

/-- An index of the output array is in point t's tile iff each coordinate is in the tile's range on its axis. -/
theorem mem_blk (t : Fin cfg2.N) (i : S100000x28.Idx) :
    i ∈ ((cfg2.win 5).blk t).view.set ↔ ∀ a : Fin 2, win2_5.index t a * S5000x28.size a ≤ (i a).val ∧ (i a).val < win2_5.index t a * S5000x28.size a + S5000x28.size a := by
  show i ∈ ((View.whole main_v56).slice (win2_5.rect t)).set ↔ _
  rw [View.set_slice_whole, Rect.mem_set_unit]
  exact Iff.rfl

/-- Every index of the output array is in some point's tile: row r is in the tile of point r / 5000. -/
theorem cover (i : S100000x28.Idx) :
    ∃ t : Fin cfg2.N, (cfg2.win 5).flush t = true ∧ i ∈ ((cfg2.win 5).blk t).view.set := by
  have hi0 : (i 0).val < 100000 := (i 0).isLt
  have hi1 : (i 1).val < 28 := (i 1).isLt
  have hN : cfg2.N = 20 := Gen.N_2
  have ht : (i 0).val / 5000 < cfg2.N := by rw [hN]; omega
  obtain ⟨-, -, -, -, -, -, -, -, -, -, e50, -, e51⟩ := idx_facts ⟨(i 0).val / 5000, ht⟩
  refine ⟨⟨(i 0).val / 5000, ht⟩, Gen.flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, ht⟩ (1 : Fin 2) * 28 ≤ (i 1).val ∧ (i 1).val < win2_5.index ⟨(i 0).val / 5000, ht⟩ (1 : Fin 2) * 28 + 28
    rw [e51]
    omega

/-- After the region the output array is the whole-array linear stage of the region's five input arrays. -/
theorem final2 (c : Dev nD) :
    (Gen.dat2 (F := Ideal) V c).arrAt 5 cfg2.N
      = Cert.Sage.lin (n := 100000) (din := 56) (dout := 28) (V c (Pipeline.arrRef spec2 0)) (V c (Pipeline.arrRef spec2 1)) (V c (Pipeline.arrRef spec2 2)) (V c (Pipeline.arrRef spec2 3)) (V c (Pipeline.arrRef spec2 4)) :=
  (Gen.dat2 (F := Ideal) V c).arrAt_eq_of_cover 5 _ (fun t _ => flushed_eq V c t) cover

end Cert.KernelIdeal.Region2

end
-- ==== Proof.Region3.lean ====
/-
  Region 3: the output array of the linear stage, tile by tile.

  The region's grid has 20 points; point t works on rows 5000·t … 5000·t + 4999. Its body forms, for the row tile,
  the product of the mean tile with the left weights plus the product of the feature tile with the right weights plus
  the bias row spread over the rows. Entry (p, q) of that tile is entry (5000·t + p, q) of the whole-array linear
  stage, because a row of a matrix product reads only the same row of its left operand. The 20 tiles cover all
  100000 rows, so after the region the output array is the whole-array linear stage of the region's five inputs.
-/
import proofs.«167564_j6425271074972_1_alg».proof.Proof.Gen.KernelIdeal.Frame
import proofs.«167564_j6425271074972_1_alg».proof.Proof.Layer
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

/-- Entry (p, q) of the body's result tile, from the five tiles it loads: the two products' sums over the contraction
    index, plus the bias row's entry q. -/
theorem payload_entry (x0 x1 : Vec Ideal S5000x28 .f32) (x2 x3 : Vec Ideal S28x1 .f32) (x4 : Vec Ideal S1x1 .f32)
    (p : Fin 5000) (q : Fin 1) :
    Gen.k3_pay1 x0 x1 x2 x3 x4 (ix2 p q) = Cert.Sage.linAt x0 x1 x2 x3 x4 p q := by
  unfold Gen.k3_pay1
  refine (addf_apply _ _ _).trans ?_
  unfold Cert.Sage.linAt
  refine congrArg₂ (· + ·) ?_ ?_
  · refine (addf_apply _ _ _).trans ?_
    refine congrArg₂ (· + ·) ?_ ?_
    · refine (Cert.LibPlainContract.matmul_plain_apply 5000 28 1 none _ _ p q).trans ?_
      refine Finset.sum_congr rfl fun k _ => ?_
      refine congrArg₂ (· * ·) ?_ rfl
      exact congrFun (shapeCast_self _ _) _
    · refine (Cert.LibPlainContract.matmul_plain_apply 5000 28 1 none _ _ p q).trans ?_
      refine Finset.sum_congr rfl fun k _ => ?_
      refine congrArg₂ (· * ·) ?_ rfl
      exact congrFun (shapeCast_self _ _) _
  · refine (broadcastTo_1b_ab_apply _ _ p q).trans ?_
    refine (congrFun (shapeCast_self _ _) _).trans ?_
    exact congrFun (shapeCast_self _ _) _

/-- An entry of the linear stage is determined by the row of each left operand, the column of each weight matrix and
    the bias entry that it reads. -/
theorem linAt_congr {n n' din dout : Nat}
    (mean x : (⟨2, ![n, din]⟩ : Shape).Idx → EReal) (mean' x' : (⟨2, ![n', din]⟩ : Shape).Idx → EReal)
    (wl wr wl' wr' : (⟨2, ![din, dout]⟩ : Shape).Idx → EReal) (b b' : (⟨2, ![1, dout]⟩ : Shape).Idx → EReal)
    (p : Fin n) (p' : Fin n') (q : Fin dout)
    (hm : ∀ k : Fin din, mean (ix2 p k) = mean' (ix2 p' k)) (hx : ∀ k : Fin din, x (ix2 p k) = x' (ix2 p' k))
    (hl : wl = wl') (hr : wr = wr') (hb : b = b') :
    Cert.Sage.linAt mean x wl wr b p q = Cert.Sage.linAt mean' x' wl' wr' b' p' q := by
  subst hl hr hb
  unfold Cert.Sage.linAt
  refine congrArg₂ (· + ·) (congrArg₂ (· + ·) (Finset.sum_congr rfl fun k _ => ?_) (Finset.sum_congr rfl fun k _ => ?_)) rfl
  · rw [hm k]
  · rw [hx k]

theorem hz : (![0, 0] : Fin 2 → Nat) = fun _ => 0 := funext fun a => by fin_cases a <;> rfl

/-- The windows' index maps, decided over the 20 grid points: the two row-tiled inputs sit at the output's row tile
    and column tile 0, the weights and the bias row at block (0, 0), and the output's row tile is the point's number. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (0 : Fin 2) ≤ 19 ∧ win3_5.index t (1 : Fin 2) = 0 :=
  (by decide +kernel : ∀ t : Fin grid3.N, _)

variable (V : (c : Dev nD) → (b : Ref sig .tc) → Buf (Elt Ideal) ((c : Thread nD τ).loc b))

/-- What point t writes back is tile t of the whole-array linear stage of the region's inputs. -/
theorem flushed_eq (c : Dev nD) (t : Fin cfg3.N) :
    (Gen.dat3 (F := Ideal) V c).flushed 5 t
      = ((cfg3.win 5).blk t).view.read (Elt Ideal)
          (Cert.Sage.lin (n := 100000) (din := 28) (dout := 1) (V c main_v69) (V c main_v56) (V c main_arg11) (V c main_arg13) (V c main_v70)) := by
  show (cfg3.win 5).cut (grid3.coords t) ((Gen.dat3 V c).after 5 t) = _
  rw [Gen.after3_5]
  unfold Gen.out3_5
  rw [View.canon_unit_zero hz]
  simp only [View.ld_unit_zero (S := S5000x28) hz, View.ld_unit_zero (S := S28x1) hz, View.ld_unit_zero (S := S1x1) hz]
  obtain ⟨e00, e01, e10, e11, e20, e21, e30, e31, e40, e41, e50, e5le, e51⟩ := idx_facts t
  funext j
  obtain ⟨p, q, rfl⟩ : ∃ (p : Fin 5000) (q : Fin 1), j = ix2 p q := ⟨j 0, j 1, eq_ix2 j⟩
  have hp : p.val < 5000 := p.isLt
  have hq : q.val < 1 := q.isLt
  show Gen.k3_pay1 (Gen.iblk3 V c 0 t) (Gen.iblk3 V c 1 t) (Gen.iblk3 V c 2 t) (Gen.iblk3 V c 3 t) (Gen.iblk3 V c 4 t) (ix2 p q) = _
  refine (payload_entry _ _ _ _ _ p q).trans ?_
  have hemb : ((cfg3.win 5).blk t).view.emb (ix2 p q)
      = (ix2 (⟨t.val * 5000 + p.val, by omega⟩ : Fin 100000) q : S100000x1.Idx) := by
    funext a; apply Fin.ext
    match a with
    | ⟨0, _⟩ => show win3_5.index t (0 : Fin 2) * 5000 + 1 * p.val = t.val * 5000 + p.val; omega
    | ⟨1, _⟩ => show win3_5.index t (1 : Fin 2) * 1 + 1 * q.val = q.val; omega
  show _ = Cert.Sage.lin _ _ _ _ _ (((cfg3.win 5).blk t).view.emb (ix2 p q))
  rw [hemb, Cert.Sage.lin_apply]
  refine linAt_congr _ _ _ _ _ _ _ _ _ _ p _ q (fun k => ?_) (fun k => ?_) ?_ ?_ ?_
  · show V c main_v69 (((cfg3.win 0).blk t).view.emb (ix2 p k)) = V c main_v69 (ix2 _ k)
    refine congrArg _ (funext fun a => Fin.ext ?_)
    have hk : k.val < 28 := k.isLt
    match a with
    | ⟨0, _⟩ => show win3_0.index t (0 : Fin 2) * 5000 + 1 * p.val = t.val * 5000 + p.val; omega
    | ⟨1, _⟩ => show win3_0.index t (1 : Fin 2) * 28 + 1 * k.val = k.val; omega
  · show V c main_v56 (((cfg3.win 1).blk t).view.emb (ix2 p k)) = V c main_v56 (ix2 _ k)
    refine congrArg _ (funext fun a => Fin.ext ?_)
    have hk : k.val < 28 := k.isLt
    match a with
    | ⟨0, _⟩ => show win3_1.index t (0 : Fin 2) * 5000 + 1 * p.val = t.val * 5000 + p.val; omega
    | ⟨1, _⟩ => show win3_1.index t (1 : Fin 2) * 28 + 1 * k.val = k.val; omega
  · funext y
    show V c main_arg11 (((cfg3.win 2).blk t).view.emb y) = V c main_arg11 y
    refine congrArg _ (funext fun a => Fin.ext ?_)
    match a with
    | ⟨0, _⟩ => show win3_2.index t (0 : Fin 2) * 28 + 1 * (y 0).val = (y 0).val; omega
    | ⟨1, _⟩ => show win3_2.index t (1 : Fin 2) * 1 + 1 * (y 1).val = (y 1).val; omega
  · funext y
    show V c main_arg13 (((cfg3.win 3).blk t).view.emb y) = V c main_arg13 y
    refine congrArg _ (funext fun a => Fin.ext ?_)
    match a with
    | ⟨0, _⟩ => show win3_3.index t (0 : Fin 2) * 28 + 1 * (y 0).val = (y 0).val; omega
    | ⟨1, _⟩ => show win3_3.index t (1 : Fin 2) * 1 + 1 * (y 1).val = (y 1).val; omega
  · funext y
    show V c main_v70 (((cfg3.win 4).blk t).view.emb y) = V c main_v70 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 1 + 1 * (y 1).val = (y 1).val; omega

/-- An index of the output array is in point t's tile iff each coordinate is in the tile's range on its axis. -/
theorem mem_blk (t : Fin cfg3.N) (i : S100000x1.Idx) :
    i ∈ ((cfg3.win 5).blk t).view.set ↔ ∀ a : Fin 2, win3_5.index t a * S5000x1.size a ≤ (i a).val ∧ (i a).val < win3_5.index t a * S5000x1.size a + S5000x1.size a := by
  show i ∈ ((View.whole main_v71).slice (win3_5.rect t)).set ↔ _
  rw [View.set_slice_whole, Rect.mem_set_unit]
  exact Iff.rfl

/-- Every index of the output array is in some point's tile: row r is in the tile of point r / 5000. -/
theorem cover (i : S100000x1.Idx) :
    ∃ t : Fin cfg3.N, (cfg3.win 5).flush t = true ∧ i ∈ ((cfg3.win 5).blk t).view.set := by
  have hi0 : (i 0).val < 100000 := (i 0).isLt
  have hi1 : (i 1).val < 1 := (i 1).isLt
  have hN : cfg3.N = 20 := Gen.N_3
  have ht : (i 0).val / 5000 < cfg3.N := by rw [hN]; omega
  obtain ⟨-, -, -, -, -, -, -, -, -, -, e50, -, e51⟩ := idx_facts ⟨(i 0).val / 5000, ht⟩
  refine ⟨⟨(i 0).val / 5000, ht⟩, Gen.flush3_5 _, ?_⟩
  rw [mem_blk]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win3_5.index ⟨(i 0).val / 5000, ht⟩ (1 : Fin 2) * 1 ≤ (i 1).val ∧ (i 1).val < win3_5.index ⟨(i 0).val / 5000, ht⟩ (1 : Fin 2) * 1 + 1
    rw [e51]
    omega

/-- After the region the output array is the whole-array linear stage of the region's five input arrays. -/
theorem final3 (c : Dev nD) :
    (Gen.dat3 (F := Ideal) V c).arrAt 5 cfg3.N
      = Cert.Sage.lin (n := 100000) (din := 28) (dout := 1) (V c (Pipeline.arrRef spec3 0)) (V c (Pipeline.arrRef spec3 1)) (V c (Pipeline.arrRef spec3 2)) (V c (Pipeline.arrRef spec3 3)) (V c (Pipeline.arrRef spec3 4)) :=
  (Gen.dat3 (F := Ideal) V c).arrAt_eq_of_cover 5 _ (fun t _ => flushed_eq V c t) cover

end Cert.KernelIdeal.Region3

end
-- ==== Proof.KFold.lean ====
/-
  The kernel program's result as the composition of its four layers.

  Each region leaves in its output array the linear stage of the arrays it was entered with; the stretch before it
  made those arrays from the previous region's output, the edge list's two rows and the reciprocal degree. So the
  array at each region's exit is that layer of the array at the previous region's exit, and the result, read at the
  last boundary, is the fourth layer of the third of the second of the first of the input features.
-/
import proofs.«167564_j6425271074972_1_alg».proof.Proof.KHost
import proofs.«167564_j6425271074972_1_alg».proof.Proof.Region0
import proofs.«167564_j6425271074972_1_alg».proof.Proof.Region1
import proofs.«167564_j6425271074972_1_alg».proof.Proof.Region2
import proofs.«167564_j6425271074972_1_alg».proof.Proof.Region3

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The linear stage of equal arrays is equal. -/
theorem lin_congr {n din dout : Nat} {a a' x x' : (⟨2, ![n, din]⟩ : Shape).Idx → EReal}
    {wl wl' wr wr' : (⟨2, ![din, dout]⟩ : Shape).Idx → EReal} {b b' : (⟨2, ![1, dout]⟩ : Shape).Idx → EReal}
    (ha : a = a') (hx : x = x') (hwl : wl = wl') (hwr : wr = wr') (hb : b = b') :
    Cert.Sage.lin a x wl wr b = Cert.Sage.lin a' x' wl' wr' b' := by
  subst ha hx hwl hwr hb; rfl

/-- What region 0 leaves in its output array: layer 0 of the features it was entered with. -/
theorem out0 (c : Dev nD) : W2 m ρ c (Proc.devRef .tc main_v26)
    = layer0 (m ((c : Thread nD τ).loc main_arg0)) (srcOf (m ((c : Thread nD τ).loc main_arg1))) (dstOf (m ((c : Thread nD τ).loc main_arg1))) (degInv (dstOf (m ((c : Thread nD τ).loc main_arg1)))) (m ((c : Thread nD τ).loc main_arg2)) (m ((c : Thread nD τ).loc main_arg4)) (m ((c : Thread nD τ).loc main_arg3)) := by
  refine (W2_arr m ρ c 5).trans ((Cert.KernelIdeal.Region0.final0 (V1 m ρ) c).trans ?_)
  exact lin_congr (n := 100000) (din := 128) (dout := 85) (mean0 m ρ c) (feat0 m ρ c) (wl0 m ρ c) (wr0 m ρ c) (bias0 m ρ c)

/-- What region 1 leaves in its output array: layer 1 of the features it was entered with. -/
theorem out1 (c : Dev nD) : W4 m ρ c (Proc.devRef .tc main_v41)
    = layer1 (W2 m ρ c (Proc.devRef .tc main_v26)) (srcOf (m ((c : Thread nD τ).loc main_arg1))) (dstOf (m ((c : Thread nD τ).loc main_arg1))) (degInv (dstOf (m ((c : Thread nD τ).loc main_arg1)))) (m ((c : Thread nD τ).loc main_arg5)) (m ((c : Thread nD τ).loc main_arg7)) (m ((c : Thread nD τ).loc main_arg6)) := by
  refine (W4_arr m ρ c 5).trans ((Cert.KernelIdeal.Region1.final1 (V3 m ρ) c).trans ?_)
  refine lin_congr (n := 100000) (din := 85) (dout := 56) ((mean1 m ρ c).trans ?_) (feat1 m ρ c) ((wl1 m ρ c).trans (back1_main_arg5 m ρ c))
    ((wr1 m ρ c).trans (back1_main_arg7 m ρ c)) ((bias1 m ρ c).trans (congrArg biasRow1 (back1_main_arg6 m ρ c)))
  rw [back1_main_v1 m ρ c, back1_main_v3 m ρ c, back1_main_v11 m ρ c, src_base m ρ c, dst_base m ρ c, dinv_base m ρ c]

/-- What region 2 leaves in its output array: layer 2 of the features it was entered with. -/
theorem out2 (c : Dev nD) : W6 m ρ c (Proc.devRef .tc main_v56)
    = layer2 (W4 m ρ c (Proc.devRef .tc main_v41)) (srcOf (m ((c : Thread nD τ).loc main_arg1))) (dstOf (m ((c : Thread nD τ).loc main_arg1))) (degInv (dstOf (m ((c : Thread nD τ).loc main_arg1)))) (m ((c : Thread nD τ).loc main_arg8)) (m ((c : Thread nD τ).loc main_arg10)) (m ((c : Thread nD τ).loc main_arg9)) := by
  refine (W6_arr m ρ c 5).trans ((Cert.KernelIdeal.Region2.final2 (V5 m ρ) c).trans ?_)
  refine lin_congr (n := 100000) (din := 56) (dout := 28) ((mean2 m ρ c).trans ?_) (feat2 m ρ c) ((wl2 m ρ c).trans (back2_main_arg8 m ρ c))
    ((wr2 m ρ c).trans (back2_main_arg10 m ρ c)) ((bias2 m ρ c).trans (congrArg biasRow2 (back2_main_arg9 m ρ c)))
  rw [back2_main_v1 m ρ c, back2_main_v3 m ρ c, back2_main_v11 m ρ c, src_base m ρ c, dst_base m ρ c, dinv_base m ρ c]

/-- What region 3 leaves in its output array: layer 3 of the features it was entered with. -/
theorem out3 (c : Dev nD) : W8 m ρ c (Proc.devRef .tc main_v71)
    = layer3 (W6 m ρ c (Proc.devRef .tc main_v56)) (srcOf (m ((c : Thread nD τ).loc main_arg1))) (dstOf (m ((c : Thread nD τ).loc main_arg1))) (degInv (dstOf (m ((c : Thread nD τ).loc main_arg1)))) (m ((c : Thread nD τ).loc main_arg11)) (m ((c : Thread nD τ).loc main_arg13)) (m ((c : Thread nD τ).loc main_arg12)) := by
  refine (W8_arr m ρ c 5).trans ((Cert.KernelIdeal.Region3.final3 (V7 m ρ) c).trans ?_)
  refine lin_congr (n := 100000) (din := 28) (dout := 1) ((mean3 m ρ c).trans ?_) (feat3 m ρ c) ((wl3 m ρ c).trans (back3_main_arg11 m ρ c))
    ((wr3 m ρ c).trans (back3_main_arg13 m ρ c)) ((bias3 m ρ c).trans (congrArg biasRow3 (back3_main_arg12 m ρ c)))
  rw [back3_main_v1 m ρ c, back3_main_v3 m ρ c, back3_main_v11 m ρ c, src_base m ρ c, dst_base m ρ c, dinv_base m ρ c]

/-- The four layers composed, from the launch contents of the arguments. -/
def value (m : (ℓ : Loc nD τ sig) → Buf (Elt Ideal) ℓ) (c : Dev nD) : Buf (Elt Ideal) ((c : Thread nD τ).loc main_v71) :=
  layer3
        (layer2
          (layer1
            (layer0 (m ((c : Thread nD τ).loc main_arg0)) (srcOf (m ((c : Thread nD τ).loc main_arg1))) (dstOf (m ((c : Thread nD τ).loc main_arg1))) (degInv (dstOf (m ((c : Thread nD τ).loc main_arg1)))) (m ((c : Thread nD τ).loc main_arg2)) (m ((c : Thread nD τ).loc main_arg4)) (m ((c : Thread nD τ).loc main_arg3)))
            (srcOf (m ((c : Thread nD τ).loc main_arg1))) (dstOf (m ((c : Thread nD τ).loc main_arg1))) (degInv (dstOf (m ((c : Thread nD τ).loc main_arg1)))) (m ((c : Thread nD τ).loc main_arg5)) (m ((c : Thread nD τ).loc main_arg7)) (m ((c : Thread nD τ).loc main_arg6)))
          (srcOf (m ((c : Thread nD τ).loc main_arg1))) (dstOf (m ((c : Thread nD τ).loc main_arg1))) (degInv (dstOf (m ((c : Thread nD τ).loc main_arg1)))) (m ((c : Thread nD τ).loc main_arg8)) (m ((c : Thread nD τ).loc main_arg10)) (m ((c : Thread nD τ).loc main_arg9)))
        (srcOf (m ((c : Thread nD τ).loc main_arg1))) (dstOf (m ((c : Thread nD τ).loc main_arg1))) (degInv (dstOf (m ((c : Thread nD τ).loc main_arg1)))) (m ((c : Thread nD τ).loc main_arg11)) (m ((c : Thread nD τ).loc main_arg13)) (m ((c : Thread nD τ).loc main_arg12))

/-- The result array at the last boundary is the four layers composed. -/
theorem result_eq (c : Dev nD) : W8 m ρ c (Proc.devRef .tc main_v71) = value m c := by
  unfold value
  rw [out3 m ρ c, out2 m ρ c, out1 m ρ c, out0 m ρ c]

end Cert.KernelIdeal.KValue

end
-- ==== Proof.RDefs.lean ====
/-
  The reference's layers as functions of whole arrays, and the reference's run as their composition.

  A layer gathers the source rows of x, adds them into the destination nodes' rows (the neighbour sums), divides row p
  by max(degree of p, 1), and returns (that mean) · Wl + bias + x · Wr. The reference's result is the fourth layer of
  the third of the second of the first of the input features.
-/
import proofs.«167564_j6425271074972_1_alg».proof.Proof.Gen.ReferenceIdeal.Run
import Idealize.ShloMosaic.PureOps.Ideal

noncomputable section

namespace Cert.ReferenceIdeal.RValue

open Cert.ReferenceIdeal Cert.ReferenceIdeal.Facts₀ Cert.ReferenceIdeal.Facts
open Idealize.ShloMosaic Idealize.ShloMosaic.TcCoe Idealize.SL.Sem

/-- The source nodes as a column of start indices, a negative index counted from the end. -/
def srcCol (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 100000#32))) src)

/-- The destination nodes as a column of scatter indices. -/
def dstCol (dst : IVec S640000 32) : IVec S640000x1 32 :=
  broadcastInDim S640000x1 ![0] bcast_S640000_S640000x1_0 dst

/-- The vector of ones over the nodes. -/
def ones : FVec Ideal S100000 .f32 := broadcastInDim S100000 ![] bcast_S_S100000 (constant S_ .f32 0x3F800000#32)

/-- The degree of each node: one added per incoming edge. -/
def degree (dst : IVec S640000 32) : FVec Ideal S100000 .f32 :=
  Host.scatterAdd scatter_S100000_S640000x1_S640000_n_0_0_1
    (broadcastInDim S100000 ![] bcast_S_S100000 (constant S_ .f32 0x00000000#32)) (dstCol dst)
    (broadcastInDim S640000 ![] bcast_S_S640000 (constant S_ .f32 0x3F800000#32))

/-- The neighbour sums of layer 0. -/
def agg0 (x : FVec Ideal S100000x128 .f32) (src dst : IVec S640000 32) : FVec Ideal S100000x128 .f32 :=
  Host.scatterAdd scatter_S100000x128_S640000x1_S640000x128_1_0_0_1
    (broadcastInDim S100000x128 ![] bcast_S_S100000x128 (constant S_ .f32 0x00000000#32)) (dstCol dst)
    (Host.gather gather_S100000x128_S640000x1_S640000x128_1_0_n_n_0_1_1128 x (srcCol src))

/-- Layer 0 as the reference computes it: the neighbour sums divided by max(degree, 1), times Wl, plus the bias,
    plus x times Wr. -/
def layer0 (x : FVec Ideal S100000x128 .f32) (src dst : IVec S640000 32)
    (wl wr : FVec Ideal S128x85 .f32) (bl : FVec Ideal S85 .f32) : FVec Ideal S100000x85 .f32 :=
  addf (addf (Host.dotGeneral dot_S100000x128_S128x85_S100000x85_1_0_0_1_n_n none
      (Host.divf (agg0 x src dst) (broadcastInDim S100000x128 ![0, 1] bcast_S100000x1_S100000x128_0_1
        (broadcastInDim S100000x1 ![0] bcast_S100000_S100000x1_0 (maximumf (degree dst) ones)))) wl)
    (broadcastInDim S100000x85 ![0, 1] bcast_S1x85_S100000x85_0_1 (broadcastInDim S1x85 ![1] bcast_S85_S1x85_1 bl)))
    (Host.dotGeneral dot_S100000x128_S128x85_S100000x85_1_0_0_1_n_n none x wr)

/-- The neighbour sums of layer 1. -/
def agg1 (x : FVec Ideal S100000x85 .f32) (src dst : IVec S640000 32) : FVec Ideal S100000x85 .f32 :=
  Host.scatterAdd scatter_S100000x85_S640000x1_S640000x85_1_0_0_1
    (broadcastInDim S100000x85 ![] bcast_S_S100000x85 (constant S_ .f32 0x00000000#32)) (dstCol dst)
    (Host.gather gather_S100000x85_S640000x1_S640000x85_1_0_n_n_0_1_185 x (srcCol src))

/-- Layer 1 as the reference computes it: the neighbour sums divided by max(degree, 1), times Wl, plus the bias,
    plus x times Wr. -/
def layer1 (x : FVec Ideal S100000x85 .f32) (src dst : IVec S640000 32)
    (wl wr : FVec Ideal S85x56 .f32) (bl : FVec Ideal S56 .f32) : FVec Ideal S100000x56 .f32 :=
  addf (addf (Host.dotGeneral dot_S100000x85_S85x56_S100000x56_1_0_0_1_n_n none
      (Host.divf (agg1 x src dst) (broadcastInDim S100000x85 ![0, 1] bcast_S100000x1_S100000x85_0_1
        (broadcastInDim S100000x1 ![0] bcast_S100000_S100000x1_0 (maximumf (degree dst) ones)))) wl)
    (broadcastInDim S100000x56 ![0, 1] bcast_S1x56_S100000x56_0_1 (broadcastInDim S1x56 ![1] bcast_S56_S1x56_1 bl)))
    (Host.dotGeneral dot_S100000x85_S85x56_S100000x56_1_0_0_1_n_n none x wr)

/-- The neighbour sums of layer 2. -/
def agg2 (x : FVec Ideal S100000x56 .f32) (src dst : IVec S640000 32) : FVec Ideal S100000x56 .f32 :=
  Host.scatterAdd scatter_S100000x56_S640000x1_S640000x56_1_0_0_1
    (broadcastInDim S100000x56 ![] bcast_S_S100000x56 (constant S_ .f32 0x00000000#32)) (dstCol dst)
    (Host.gather gather_S100000x56_S640000x1_S640000x56_1_0_n_n_0_1_156 x (srcCol src))

/-- Layer 2 as the reference computes it: the neighbour sums divided by max(degree, 1), times Wl, plus the bias,
    plus x times Wr. -/
def layer2 (x : FVec Ideal S100000x56 .f32) (src dst : IVec S640000 32)
    (wl wr : FVec Ideal S56x28 .f32) (bl : FVec Ideal S28 .f32) : FVec Ideal S100000x28 .f32 :=
  addf (addf (Host.dotGeneral dot_S100000x56_S56x28_S100000x28_1_0_0_1_n_n none
      (Host.divf (agg2 x src dst) (broadcastInDim S100000x56 ![0, 1] bcast_S100000x1_S100000x56_0_1
        (broadcastInDim S100000x1 ![0] bcast_S100000_S100000x1_0 (maximumf (degree dst) ones)))) wl)
    (broadcastInDim S100000x28 ![0, 1] bcast_S1x28_S100000x28_0_1 (broadcastInDim S1x28 ![1] bcast_S28_S1x28_1 bl)))
    (Host.dotGeneral dot_S100000x56_S56x28_S100000x28_1_0_0_1_n_n none x wr)

/-- The neighbour sums of layer 3. -/
def agg3 (x : FVec Ideal S100000x28 .f32) (src dst : IVec S640000 32) : FVec Ideal S100000x28 .f32 :=
  Host.scatterAdd scatter_S100000x28_S640000x1_S640000x28_1_0_0_1
    (broadcastInDim S100000x28 ![] bcast_S_S100000x28 (constant S_ .f32 0x00000000#32)) (dstCol dst)
    (Host.gather gather_S100000x28_S640000x1_S640000x28_1_0_n_n_0_1_128 x (srcCol src))

/-- Layer 3 as the reference computes it: the neighbour sums divided by max(degree, 1), times Wl, plus the bias,
    plus x times Wr. -/
def layer3 (x : FVec Ideal S100000x28 .f32) (src dst : IVec S640000 32)
    (wl wr : FVec Ideal S28x1 .f32) (bl : FVec Ideal S1 .f32) : FVec Ideal S100000x1 .f32 :=
  addf (addf (Host.dotGeneral dot_S100000x28_S28x1_S100000x1_1_0_0_1_n_n none
      (Host.divf (agg3 x src dst) (broadcastInDim S100000x28 ![0, 1] bcast_S100000x1_S100000x28_0_1
        (broadcastInDim S100000x1 ![0] bcast_S100000_S100000x1_0 (maximumf (degree dst) ones)))) wl)
    (broadcastInDim S100000x1 ![0, 1] bcast_S1x1_S100000x1_0_1 (broadcastInDim S1x1 ![1] bcast_S1_S1x1_1 bl)))
    (Host.dotGeneral dot_S100000x28_S28x1_S100000x1_1_0_0_1_n_n none x wr)

/-- Row 0 of the edge list: the source node of each edge. -/
def srcOf (e : IVec S2x640000 32) : IVec S640000 32 :=
  shapeCast S640000 (extractStridedSlice S1x640000 ![0, 0] e slices_S2x640000_S1x640000_0_0) shapeCasts_S1x640000_S640000

/-- Row 1 of the edge list: the destination node of each edge. -/
def dstOf (e : IVec S2x640000 32) : IVec S640000 32 :=
  shapeCast S640000 (extractStridedSlice S1x640000 ![1, 0] e slices_S2x640000_S1x640000_1_0) shapeCasts_S1x640000_S640000

set_option maxRecDepth 16384 in
set_option maxHeartbeats 4000000 in
/-- The reference's result is the composition of its four layers. -/
theorem res_eq (m : (ℓ : Loc nD τ sig) → Buf (Elt Ideal) ℓ) (c : Dev nD) :
    Cert.ReferenceIdeal.Value.res_main_v103 (F := Ideal) m c
      = layer3
          (layer2
            (layer1
              (layer0 (m ((c.tc : Thread nD τ).loc main_arg0)) (srcOf (m ((c.tc : Thread nD τ).loc main_arg1))) (dstOf (m ((c.tc : Thread nD τ).loc main_arg1)))
                (m ((c.tc : Thread nD τ).loc main_arg2)) (m ((c.tc : Thread nD τ).loc main_arg4)) (m ((c.tc : Thread nD τ).loc main_arg3)))
              (srcOf (m ((c.tc : Thread nD τ).loc main_arg1))) (dstOf (m ((c.tc : Thread nD τ).loc main_arg1)))
              (m ((c.tc : Thread nD τ).loc main_arg5)) (m ((c.tc : Thread nD τ).loc main_arg7)) (m ((c.tc : Thread nD τ).loc main_arg6)))
            (srcOf (m ((c.tc : Thread nD τ).loc main_arg1))) (dstOf (m ((c.tc : Thread nD τ).loc main_arg1)))
            (m ((c.tc : Thread nD τ).loc main_arg8)) (m ((c.tc : Thread nD τ).loc main_arg10)) (m ((c.tc : Thread nD τ).loc main_arg9)))
          (srcOf (m ((c.tc : Thread nD τ).loc main_arg1))) (dstOf (m ((c.tc : Thread nD τ).loc main_arg1)))
          (m ((c.tc : Thread nD τ).loc main_arg11)) (m ((c.tc : Thread nD τ).loc main_arg13)) (m ((c.tc : Thread nD τ).loc main_arg12)) := by
  unfold Cert.ReferenceIdeal.Value.res_main_v103 layer3 layer2 layer1 layer0 agg3 agg2 agg1 agg0 degree ones dstCol srcCol srcOf dstOf
  rfl

end Cert.ReferenceIdeal.RValue

end
-- ==== Proof.Bridge.lean ====
/-
  Layer by layer, the kernel program's form of a layer and the reference's are the same function of whole arrays:
  the layer law at the four layers' shapes. The two programs name the same gather, scatter and broadcast dimensions
  separately; they are the same records.
-/
import proofs.«167564_j6425271074972_1_alg».proof.Proof.KDefs
import proofs.«167564_j6425271074972_1_alg».proof.Proof.RDefs
import proofs.«167564_j6425271074972_1_alg».proof.Proof.Layer

set_option maxRecDepth 16384

noncomputable section

namespace Cert.Sage.Bridge

open Idealize.ShloMosaic

/-- The vector of ones holds the extended real one at every node. -/
theorem ones_apply (i : Cert.KernelIdeal.S100000.Idx) : Cert.KernelIdeal.KValue.ones i = 1 := by
  show Ideal.ofBits .f32 0x3F800000#32 = 1
  exact Ideal.ofBits_one_f32

/-- Layer 0: the kernel program's form and the reference's are one function of the arrays. -/
theorem layer0_eq (x : FVec Ideal Cert.KernelIdeal.S100000x128 .f32) (src dst : IVec Cert.KernelIdeal.S640000 32)
    (wl wr : FVec Ideal Cert.KernelIdeal.S128x85 .f32) (bl : FVec Ideal Cert.KernelIdeal.S85 .f32) :
    Cert.KernelIdeal.KValue.layer0 x src dst (Cert.KernelIdeal.KValue.degInv dst) wl wr bl
      = Cert.ReferenceIdeal.RValue.layer0 x src dst wl wr bl := by
  unfold Cert.KernelIdeal.KValue.layer0 Cert.KernelIdeal.KValue.scaled0 Cert.KernelIdeal.KValue.biasRow0
    Cert.KernelIdeal.KValue.degInv Cert.ReferenceIdeal.RValue.layer0
  exact Cert.Sage.layer_eq (n := 100000) (din := 128) (dout := 85) (Cert.KernelIdeal.KValue.agg0 x src dst) x wl wr bl
    (Cert.KernelIdeal.KValue.degree dst) Cert.KernelIdeal.KValue.ones ones_apply _ rfl _ _ _ _ _

/-- Layer 1: the kernel program's form and the reference's are one function of the arrays. -/
theorem layer1_eq (x : FVec Ideal Cert.KernelIdeal.S100000x85 .f32) (src dst : IVec Cert.KernelIdeal.S640000 32)
    (wl wr : FVec Ideal Cert.KernelIdeal.S85x56 .f32) (bl : FVec Ideal Cert.KernelIdeal.S56 .f32) :
    Cert.KernelIdeal.KValue.layer1 x src dst (Cert.KernelIdeal.KValue.degInv dst) wl wr bl
      = Cert.ReferenceIdeal.RValue.layer1 x src dst wl wr bl := by
  unfold Cert.KernelIdeal.KValue.layer1 Cert.KernelIdeal.KValue.scaled1 Cert.KernelIdeal.KValue.biasRow1
    Cert.KernelIdeal.KValue.degInv Cert.ReferenceIdeal.RValue.layer1
  exact Cert.Sage.layer_eq (n := 100000) (din := 85) (dout := 56) (Cert.KernelIdeal.KValue.agg1 x src dst) x wl wr bl
    (Cert.KernelIdeal.KValue.degree dst) Cert.KernelIdeal.KValue.ones ones_apply _ rfl _ _ _ _ _

/-- Layer 2: the kernel program's form and the reference's are one function of the arrays. -/
theorem layer2_eq (x : FVec Ideal Cert.KernelIdeal.S100000x56 .f32) (src dst : IVec Cert.KernelIdeal.S640000 32)
    (wl wr : FVec Ideal Cert.KernelIdeal.S56x28 .f32) (bl : FVec Ideal Cert.KernelIdeal.S28 .f32) :
    Cert.KernelIdeal.KValue.layer2 x src dst (Cert.KernelIdeal.KValue.degInv dst) wl wr bl
      = Cert.ReferenceIdeal.RValue.layer2 x src dst wl wr bl := by
  unfold Cert.KernelIdeal.KValue.layer2 Cert.KernelIdeal.KValue.scaled2 Cert.KernelIdeal.KValue.biasRow2
    Cert.KernelIdeal.KValue.degInv Cert.ReferenceIdeal.RValue.layer2
  exact Cert.Sage.layer_eq (n := 100000) (din := 56) (dout := 28) (Cert.KernelIdeal.KValue.agg2 x src dst) x wl wr bl
    (Cert.KernelIdeal.KValue.degree dst) Cert.KernelIdeal.KValue.ones ones_apply _ rfl _ _ _ _ _

/-- Layer 3: the kernel program's form and the reference's are one function of the arrays. -/
theorem layer3_eq (x : FVec Ideal Cert.KernelIdeal.S100000x28 .f32) (src dst : IVec Cert.KernelIdeal.S640000 32)
    (wl wr : FVec Ideal Cert.KernelIdeal.S28x1 .f32) (bl : FVec Ideal Cert.KernelIdeal.S1 .f32) :
    Cert.KernelIdeal.KValue.layer3 x src dst (Cert.KernelIdeal.KValue.degInv dst) wl wr bl
      = Cert.ReferenceIdeal.RValue.layer3 x src dst wl wr bl := by
  unfold Cert.KernelIdeal.KValue.layer3 Cert.KernelIdeal.KValue.scaled3 Cert.KernelIdeal.KValue.biasRow3
    Cert.KernelIdeal.KValue.degInv Cert.ReferenceIdeal.RValue.layer3
  exact Cert.Sage.layer_eq (n := 100000) (din := 28) (dout := 1) (Cert.KernelIdeal.KValue.agg3 x src dst) x wl wr bl
    (Cert.KernelIdeal.KValue.degree dst) Cert.KernelIdeal.KValue.ones ones_apply _ rfl _ _ _ _ _

end Cert.Sage.Bridge

end
-- ==== Proof.lean ====
/-
  The certificate of the graph network's kernel against its reference, over the extended reals.

  The network is four layers; a layer replaces the node features x by (mean of the neighbours' features) · Wl + bias
  + x · Wr, the mean being the neighbour sums divided by max(degree, 1). The kernel's program computes the linear part
  of each layer in a pipelined region over tiles of 5000 nodes, having scaled the neighbour sums by the reciprocal
  1 / max(degree, 1) that it computes once; the reference divides, and adds the bias between the two products.

  Frames: the two kernel programs' are the generated frame certificates; the reference's is its generated run with the
  result dropped. The kernel's idealization rewrote no operation, so there is nothing to preserve.
  Values: the kernel program's run ends with the result array at the last segment boundary's contents (the launch
  theorem for several regions, the final state read at the result's buffer); region by region that array is the layer
  of the previous one (each region's blocks are the restriction of one whole-array function to the tiles, which cover
  the array); the reference's run ends at its four layers composed; and layer by layer the two forms are one function:
  max(degree, 1) is at least one, hence not zero, where a · (1 / y) = a / y on every extended real, and sums of
  extended reals may be regrouped.
-/
import proofs.«167564_j6425271074972_1_alg».proof.Defs
import proofs.«167564_j6425271074972_1_alg».proof.Proof.Gen.Kernel
import proofs.«167564_j6425271074972_1_alg».proof.Proof.Gen.Kernel.Frame
import proofs.«167564_j6425271074972_1_alg».proof.Proof.Gen.KernelIdeal
import proofs.«167564_j6425271074972_1_alg».proof.Proof.Gen.KernelIdeal.Frame
import proofs.«167564_j6425271074972_1_alg».proof.Proof.Gen.ReferenceIdeal
import proofs.«167564_j6425271074972_1_alg».proof.Proof.Gen.ReferenceIdeal.Run
import proofs.«167564_j6425271074972_1_alg».proof.Proof.Gen.Pre_finite_inputs
import proofs.«167564_j6425271074972_1_alg».proof.Proof.KRun
import proofs.«167564_j6425271074972_1_alg».proof.Proof.KFold
import proofs.«167564_j6425271074972_1_alg».proof.Proof.RDefs
import proofs.«167564_j6425271074972_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel program's run ends with its result at the four layers composed, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v71) = Cert.KernelIdeal.KValue.value m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono
    (fun r h c => ⟨(h c).1.trans (Cert.KernelIdeal.KValue.result_eq m ρ c), (h c).2⟩)
    (Cert.KernelIdeal.KRun.run_result (F := Ideal) m ρ)

/-- The four layers in the kernel program's form are the four layers in the reference's form. -/
theorem value_eq (m : (ℓ : Loc Cert.KernelIdeal.nD Cert.KernelIdeal.τ Cert.KernelIdeal.sig) → Buf (Elt Ideal) ℓ)
    (c : Dev Cert.KernelIdeal.nD) :
    Cert.KernelIdeal.KValue.value m c
      = Cert.ReferenceIdeal.RValue.layer3
          (Cert.ReferenceIdeal.RValue.layer2
            (Cert.ReferenceIdeal.RValue.layer1
              (Cert.ReferenceIdeal.RValue.layer0 (m ((c.tc : Thread Cert.KernelIdeal.nD Cert.KernelIdeal.τ).loc Cert.KernelIdeal.main_arg0))
                (Cert.ReferenceIdeal.RValue.srcOf (m ((c.tc : Thread Cert.KernelIdeal.nD Cert.KernelIdeal.τ).loc Cert.KernelIdeal.main_arg1)))
                (Cert.ReferenceIdeal.RValue.dstOf (m ((c.tc : Thread Cert.KernelIdeal.nD Cert.KernelIdeal.τ).loc Cert.KernelIdeal.main_arg1)))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg4))
                (m ((c.tc : Thread Cert.KernelIdeal.nD Cert.KernelIdeal.τ).loc Cert.KernelIdeal.main_arg3)))
              (Cert.ReferenceIdeal.RValue.srcOf (m ((c.tc : Thread Cert.KernelIdeal.nD Cert.KernelIdeal.τ).loc Cert.KernelIdeal.main_arg1)))
              (Cert.ReferenceIdeal.RValue.dstOf (m ((c.tc : Thread Cert.KernelIdeal.nD Cert.KernelIdeal.τ).loc Cert.KernelIdeal.main_arg1)))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg6)))
            (Cert.ReferenceIdeal.RValue.srcOf (m ((c.tc : Thread Cert.KernelIdeal.nD Cert.KernelIdeal.τ).loc Cert.KernelIdeal.main_arg1)))
            (Cert.ReferenceIdeal.RValue.dstOf (m ((c.tc : Thread Cert.KernelIdeal.nD Cert.KernelIdeal.τ).loc Cert.KernelIdeal.main_arg1)))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg9)))
          (Cert.ReferenceIdeal.RValue.srcOf (m ((c.tc : Thread Cert.KernelIdeal.nD Cert.KernelIdeal.τ).loc Cert.KernelIdeal.main_arg1)))
          (Cert.ReferenceIdeal.RValue.dstOf (m ((c.tc : Thread Cert.KernelIdeal.nD Cert.KernelIdeal.τ).loc Cert.KernelIdeal.main_arg1)))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg12)) := by
  unfold Cert.KernelIdeal.KValue.value
  rw [Cert.Sage.Bridge.layer0_eq, Cert.Sage.Bridge.layer1_eq, Cert.Sage.Bridge.layer2_eq, Cert.Sage.Bridge.layer3_eq]
  rfl

/-- Run from memories agreeing on the arguments, both programs end with the same result, element by element. -/
theorem algebraic : Cert.algebraic_KernelIdeal_ReferenceIdeal := by
  intro m ρ m' ρ' _ hagree
  refine ⟨fun c => Cert.KernelIdeal.KValue.value m c, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.RValue.res_eq m' c, h0, h1, h2, h3, h4, h5, h6, h7, h8, h9, h10, h11, h12, h13]
  exact (value_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
